-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x20 : Shape := ⟨2, ![16384, 20]⟩
abbrev S119x200 : Shape := ⟨2, ![119, 200]⟩
abbrev S128x200 : Shape := ⟨2, ![128, 200]⟩
abbrev S128 : Shape := ⟨1, ![128]⟩
abbrev S64x1 : Shape := ⟨2, ![64, 1]⟩
abbrev S64 : Shape := ⟨1, ![64]⟩
abbrev S128x64 : Shape := ⟨2, ![128, 64]⟩
abbrev S_ : Shape := ⟨0, ![]⟩

class Facts : Prop where
  bcast_S_S16384x20 : S_.BroadcastsInDim S16384x20 (![] : Fin 0 → Fin S16384x20.rank)
  reducesTo_S16384x20_S_d0_1 : S16384x20.ReducesTo [0, 1] S_
  h_S_ : 0 < S_.numel
  bcast_S_S119x200 : S_.BroadcastsInDim S119x200 (![] : Fin 0 → Fin S119x200.rank)
  reducesTo_S119x200_S_d0_1 : S119x200.ReducesTo [0, 1] S_
  bcast_S_S128x200 : S_.BroadcastsInDim S128x200 (![] : Fin 0 → Fin S128x200.rank)
  reducesTo_S128x200_S_d0_1 : S128x200.ReducesTo [0, 1] S_
  bcast_S_S128 : S_.BroadcastsInDim S128 (![] : Fin 0 → Fin S128.rank)
  reducesTo_S128_S_d0 : S128.ReducesTo [0] S_
  bcast_S_S64x1 : S_.BroadcastsInDim S64x1 (![] : Fin 0 → Fin S64x1.rank)
  reducesTo_S64x1_S_d0_1 : S64x1.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_

variable [Facts]

def fn_part2 {F : FTy → Type} [FloatOps F] (main_arg0 : IVec S16384x20 32) (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_c_14 : IVec S_ 32 := constantI S_ 32 0#32
  let main_v39 : IVec S16384x20 32 := broadcastInDim S16384x20 ![] bcast_S_S16384x20 main_c_14
  let main_v40 : IVec S16384x20 1 := cmpi .sge main_arg0 main_v39
  let main_c_15 : IVec S_ 32 := constantI S_ 32 119#32
  let main_v41 : IVec S16384x20 32 := broadcastInDim S16384x20 ![] bcast_S_S16384x20 main_c_15
  let main_v42 : IVec S16384x20 1 := cmpi .slt main_arg0 main_v41
  let main_v43 : IVec S16384x20 1 := andi main_v40 main_v42
  let main_c_16 : IVec S_ 1 := constantI S_ 1 1#1
  let main_v44 : IVec S_ 1 := (fun x v => Host.reduce IntOp.andi x v reducesTo_S16384x20_S_d0_1 h_S_) main_v43 main_c_16
  let main_v45 : IVec S_ 1 := andi main_v38 main_v44
  main_v45

def fn_part1 {F : FTy → Type} [FloatOps F] (main_arg0 : IVec S16384x20 32) (main_arg5 : FVec F S64x1 .f32) (main_arg6 : FVec F S64 .f32) (main_arg7 : FVec F S128x64 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x1 .f32 := Host.absf main_arg5
  let main_cst_6 : FVec F S_ .f32 := constant S_ .f32 0x7F800000#32
  let main_v20 : FVec F S64x1 .f32 := broadcastInDim S64x1 ![] bcast_S_S64x1 main_cst_6
  let main_v21 : IVec S64x1 1 := cmpf .olt main_v19 main_v20
  let main_c_7 : IVec S_ 1 := constantI S_ 1 1#1
  let main_v22 : IVec S_ 1 := (fun x v => Host.reduce IntOp.andi x v reducesTo_S64x1_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg0 main_arg8 main_v33

def fn {F : FTy → Type} [FloatOps F] (main_arg0 : IVec S16384x20 32) (main_arg1 : FVec F S16384x20 .f32) (main_arg2 : FVec F S119x200 .f32) (main_arg3 : FVec F S128x200 .f32) (main_arg4 : FVec F S128 .f32) (main_arg5 : FVec F S64x1 .f32) (main_arg6 : FVec F S64 .f32) (main_arg7 : FVec F S128x64 .f32) (main_arg8 : FVec F S128 .f32) : IVec S_ 1 :=
  let main_v0 : FVec F S16384x20 .f32 := Host.absf main_arg1
  let main_cst : FVec F S_ .f32 := constant S_ .f32 0x7F800000#32
  let main_v1 : FVec F S16384x20 .f32 := broadcastInDim S16384x20 ![] bcast_S_S16384x20 main_cst
  let main_v2 : IVec S16384x20 1 := cmpf .olt main_v0 main_v1
  let main_c : IVec S_ 1 := constantI S_ 1 1#1
  let main_v3 : IVec S_ 1 := (fun x v => Host.reduce IntOp.andi x v reducesTo_S16384x20_S_d0_1 h_S_) main_v2 main_c
  let main_v4 : FVec F S119x200 .f32 := Host.absf main_arg2
  let main_cst_0 : FVec F S_ .f32 := constant S_ .f32 0x7F800000#32
  let main_v5 : FVec F S119x200 .f32 := broadcastInDim S119x200 ![] bcast_S_S119x200 main_cst_0
  let main_v6 : IVec S119x200 1 := cmpf .olt main_v4 main_v5
  let main_c_1 : IVec S_ 1 := constantI S_ 1 1#1
  let main_v7 : IVec S_ 1 := (fun x v => Host.reduce IntOp.andi x v reducesTo_S119x200_S_d0_1 h_S_) main_v6 main_c_1
  let main_v8 : IVec S_ 1 := andi main_v3 main_v7
  let main_v9 : FVec F S128x200 .f32 := Host.absf main_arg3
  let main_cst_2 : FVec F S_ .f32 := constant S_ .f32 0x7F800000#32
  let main_v10 : FVec F S128x200 .f32 := broadcastInDim S128x200 ![] bcast_S_S128x200 main_cst_2
  let main_v11 : IVec S128x200 1 := cmpf .olt main_v9 main_v10
  let main_c_3 : IVec S_ 1 := constantI S_ 1 1#1
  let main_v12 : IVec S_ 1 := (fun x v => Host.reduce IntOp.andi x v reducesTo_S128x200_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg0 main_arg5 main_arg6 main_arg7 main_arg8 main_v13 main_v16
-- ==== Kernel.lean ====
abbrev S16384x20 : Shape := ⟨2, ![16384, 20]⟩
abbrev S119x200 : Shape := ⟨2, ![119, 200]⟩
abbrev S128x200 : Shape := ⟨2, ![128, 200]⟩
abbrev S128 : Shape := ⟨1, ![128]⟩
abbrev S64x1 : Shape := ⟨2, ![64, 1]⟩
abbrev S64 : Shape := ⟨1, ![64]⟩
abbrev S128x64 : Shape := ⟨2, ![128, 64]⟩
abbrev S_ : Shape := ⟨0, ![]⟩
abbrev S1 : Shape := ⟨1, ![1]⟩
abbrev S1x128 : Shape := ⟨2, ![1, 128]⟩
abbrev S128x128 : Shape := ⟨2, ![128, 128]⟩
abbrev S1x64 : Shape := ⟨2, ![1, 64]⟩
abbrev S64x128 : Shape := ⟨2, ![64, 128]⟩
abbrev S16384x20x128 : Shape := ⟨3, ![16384, 20, 128]⟩
abbrev S256x20 : Shape := ⟨2, ![256, 20]⟩
abbrev S256x20x128 : Shape := ⟨3, ![256, 20, 128]⟩
abbrev S256x128 : Shape := ⟨2, ![256, 128]⟩
abbrev S256x1 : Shape := ⟨2, ![256, 1]⟩
abbrev S256x64 : Shape := ⟨2, ![256, 64]⟩
abbrev S256x1x128 : Shape := ⟨3, ![256, 1, 128]⟩

abbrev nBuf : Space → Nat
  | .hbm => 21
  | .vmem => 14
  | .smem => 0
  | _ => 0

abbrev bufTy : (tb : Table) → Fin (tcTables nBuf tb) → BufTy
  | .hbm, ⟨0, _⟩ => ⟨S16384x20, .i32⟩
  | .hbm, ⟨1, _⟩ => ⟨S16384x20, .f32⟩
  | .hbm, ⟨2, _⟩ => ⟨S119x200, .f32⟩
  | .hbm, ⟨3, _⟩ => ⟨S128x200, .f32⟩
  | .hbm, ⟨4, _⟩ => ⟨S128, .f32⟩
  | .hbm, ⟨5, _⟩ => ⟨S64x1, .f32⟩
  | .hbm, ⟨6, _⟩ => ⟨S64, .f32⟩
  | .hbm, ⟨7, _⟩ => ⟨S128x64, .f32⟩
  | .hbm, ⟨8, _⟩ => ⟨S128, .f32⟩
  | .hbm, ⟨9, _⟩ => ⟨S_, .f32⟩
  | .hbm, ⟨10, _⟩ => ⟨S128x200, .f32⟩
  | .hbm, ⟨11, _⟩ => ⟨S_, .i32⟩
  | .hbm, ⟨12, _⟩ => ⟨S1, .i32⟩
  | .hbm, ⟨13, _⟩ => ⟨S128x200, .f32⟩
  | .hbm, ⟨14, _⟩ => ⟨S128, .f32⟩
  | .hbm, ⟨15, _⟩ => ⟨S1x128, .f32⟩
  | .hbm, ⟨16, _⟩ => ⟨S128x128, .f32⟩
  | .hbm, ⟨17, _⟩ => ⟨S1x64, .f32⟩
  | .hbm, ⟨18, _⟩ => ⟨S1x64, .f32⟩
  | .hbm, ⟨19, _⟩ => ⟨S64x128, .f32⟩
  | .hbm, ⟨20, _⟩ => ⟨S16384x20x128, .f32⟩
  | .local _ .vmem, ⟨0, _⟩ => ⟨S128x200, .f32⟩
  | .local _ .vmem, ⟨1, _⟩ => ⟨S128x200, .f32⟩
  | .local _ .vmem, ⟨2, _⟩ => ⟨S1x128, .f32⟩
  | .local _ .vmem, ⟨3, _⟩ => ⟨S128x128, .f32⟩
  | .local _ .vmem, ⟨4, _⟩ => ⟨S256x20, .i32⟩
  | .local _ .vmem, ⟨5, _⟩ => ⟨S256x20, .i32⟩
  | .local _ .vmem, ⟨6, _⟩ => ⟨S256x20, .f32⟩
  | .local _ .vmem, ⟨7, _⟩ => ⟨S256x20, .f32⟩
  | .local _ .vmem, ⟨8, _⟩ => ⟨S128x128, .f32⟩
  | .local _ .vmem, ⟨9, _⟩ => ⟨S1x64, .f32⟩
  | .local _ .vmem, ⟨10, _⟩ => ⟨S1x64, .f32⟩
  | .local _ .vmem, ⟨11, _⟩ => ⟨S64x128, .f32⟩
  | .local _ .vmem, ⟨12, _⟩ => ⟨S256x20x128, .f32⟩
  | .local _ .vmem, ⟨13, _⟩ => ⟨S256x20x128, .f32⟩
  | _, _ => ⟨S16384x20, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13

abbrev nD : Nat := 1
abbrev τ : Topo := Topo.v7x

variable {F : FTy → Type} [FloatOps F]

abbrev grid0 : Pipeline.Grid := .none

abbrev stage0_0 : Fin 1 → Memref sig .tc .vmem S128x200 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x200 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S256x20 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x20 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x20x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S128x200 : S_.BroadcastsInDim S128x200 (![] : Fin 0 → Fin S128x200.rank)
  bcast_S_S1 : S_.BroadcastsInDim S1 (![] : Fin 0 → Fin S1.rank)
  shapeCasts_S128_S1x128 : S128.ShapeCasts S1x128
  inb_S128x200_S128x200_0_0 : ∀ a, (![0, 0] : Fin 2 → Nat) a + S128x200.size a ≤ S128x200.size a
  h_S128x200 : 0 < S128x200.numel
  shapeCasts_S128x200_S128x200 : S128x200.ShapeCasts S128x200
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  inb_S128x128_S128x128_0_0 : ∀ a, (![0, 0] : Fin 2 → Nat) a + S128x128.size a ≤ S128x128.size a
  h_S128x128 : 0 < S128x128.numel
  shapeCasts_S64x1_S1x64 : S64x1.ShapeCasts S1x64
  shapeCasts_S64_S1x64 : S64.ShapeCasts S1x64
  transposes_S128x64_S64x128_1_0 : S128x64.Transposes [1, 0] S64x128
  inb_S256x20_S256x20_0_0 : ∀ a, (![0, 0] : Fin 2 → Nat) a + S256x20.size a ≤ S256x20.size a
  h_S256x20 : 0 < S256x20.numel
  shapeCasts_S128x128_S128x128 : S128x128.ShapeCasts S128x128
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  iota_S256x128_d1_w32 : S256x128.Iotas .tc 32 [1]
  slices_S256x20_o0_0_S256x1 : S256x20.Slices ![0, 0] S256x1
  broadcasts_S256x1_S256x128 : S256x1.Broadcasts S256x128
  natLt_1_32 : 1 < 32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S256x1_S256x64 : S256x1.Broadcasts S256x64
  broadcasts_S1x64_S256x64 : S1x64.Broadcasts S256x64
  inb_S256x20x128_S256x1x128_0_0_0 : ∀ a, (![0, 0, 0] : Fin 3 → Nat) a + S256x1x128.size a ≤ S256x20x128.size a
  h_S256x1x128 : 0 < S256x1x128.numel
  shapeCasts_S256x1x128_S256x128 : S256x1x128.ShapeCasts S256x128
  shapeCasts_S256x128_S256x1x128 : S256x128.ShapeCasts S256x1x128
  slices_S256x20_o0_1_S256x1 : S256x20.Slices ![0, 1] S256x1
  inb_S256x20x128_S256x1x128_0_1_0 : ∀ a, (![0, 1, 0] : Fin 3 → Nat) a + S256x1x128.size a ≤ S256x20x128.size a
  slices_S256x20_o0_2_S256x1 : S256x20.Slices ![0, 2] S256x1
  inb_S256x20x128_S256x1x128_0_2_0 : ∀ a, (![0, 2, 0] : Fin 3 → Nat) a + S256x1x128.size a ≤ S256x20x128.size a
  slices_S256x20_o0_3_S256x1 : S256x20.Slices ![0, 3] S256x1
  inb_S256x20x128_S256x1x128_0_3_0 : ∀ a, (![0, 3, 0] : Fin 3 → Nat) a + S256x1x128.size a ≤ S256x20x128.size a
  slices_S256x20_o0_4_S256x1 : S256x20.Slices ![0, 4] S256x1
  inb_S256x20x128_S256x1x128_0_4_0 : ∀ a, (![0, 4, 0] : Fin 3 → Nat) a + S256x1x128.size a ≤ S256x20x128.size a
  slices_S256x20_o0_5_S256x1 : S256x20.Slices ![0, 5] S256x1
  inb_S256x20x128_S256x1x128_0_5_0 : ∀ a, (![0, 5, 0] : Fin 3 → Nat) a + S256x1x128.size a ≤ S256x20x128.size a
  slices_S256x20_o0_6_S256x1 : S256x20.Slices ![0, 6] S256x1
  inb_S256x20x128_S256x1x128_0_6_0 : ∀ a, (![0, 6, 0] : Fin 3 → Nat) a + S256x1x128.size a ≤ S256x20x128.size a
  slices_S256x20_o0_7_S256x1 : S256x20.Slices ![0, 7] S256x1
  inb_S256x20x128_S256x1x128_0_7_0 : ∀ a, (![0, 7, 0] : Fin 3 → Nat) a + S256x1x128.size a ≤ S256x20x128.size a
  slices_S256x20_o0_8_S256x1 : S256x20.Slices ![0, 8] S256x1
  inb_S256x20x128_S256x1x128_0_8_0 : ∀ a, (![0, 8, 0] : Fin 3 → Nat) a + S256x1x128.size a ≤ S256x20x128.size a
  slices_S256x20_o0_9_S256x1 : S256x20.Slices ![0, 9] S256x1
  inb_S256x20x128_S256x1x128_0_9_0 : ∀ a, (![0, 9, 0] : Fin 3 → Nat) a + S256x1x128.size a ≤ S256x20x128.size a
  slices_S256x20_o0_10_S256x1 : S256x20.Slices ![0, 10] S256x1
  inb_S256x20x128_S256x1x128_0_10_0 : ∀ a, (![0, 10, 0] : Fin 3 → Nat) a + S256x1x128.size a ≤ S256x20x128.size a
  slices_S256x20_o0_11_S256x1 : S256x20.Slices ![0, 11] S256x1
  inb_S256x20x128_S256x1x128_0_11_0 : ∀ a, (![0, 11, 0] : Fin 3 → Nat) a + S256x1x128.size a ≤ S256x20x128.size a
  slices_S256x20_o0_12_S256x1 : S256x20.Slices ![0, 12] S256x1
  inb_S256x20x128_S256x1x128_0_12_0 : ∀ a, (![0, 12, 0] : Fin 3 → Nat) a + S256x1x128.size a ≤ S256x20x128.size a
  slices_S256x20_o0_13_S256x1 : S256x20.Slices ![0, 13] S256x1
  inb_S256x20x128_S256x1x128_0_13_0 : ∀ a, (![0, 13, 0] : Fin 3 → Nat) a + S256x1x128.size a ≤ S256x20x128.size a
  slices_S256x20_o0_14_S256x1 : S256x20.Slices ![0, 14] S256x1
  inb_S256x20x128_S256x1x128_0_14_0 : ∀ a, (![0, 14, 0] : Fin 3 → Nat) a + S256x1x128.size a ≤ S256x20x128.size a
  slices_S256x20_o0_15_S256x1 : S256x20.Slices ![0, 15] S256x1
  inb_S256x20x128_S256x1x128_0_15_0 : ∀ a, (![0, 15, 0] : Fin 3 → Nat) a + S256x1x128.size a ≤ S256x20x128.size a
  slices_S256x20_o0_16_S256x1 : S256x20.Slices ![0, 16] S256x1
  inb_S256x20x128_S256x1x128_0_16_0 : ∀ a, (![0, 16, 0] : Fin 3 → Nat) a + S256x1x128.size a ≤ S256x20x128.size a
  slices_S256x20_o0_17_S256x1 : S256x20.Slices ![0, 17] S256x1
  inb_S256x20x128_S256x1x128_0_17_0 : ∀ a, (![0, 17, 0] : Fin 3 → Nat) a + S256x1x128.size a ≤ S256x20x128.size a
  slices_S256x20_o0_18_S256x1 : S256x20.Slices ![0, 18] S256x1
  inb_S256x20x128_S256x1x128_0_18_0 : ∀ a, (![0, 18, 0] : Fin 3 → Nat) a + S256x1x128.size a ≤ S256x20x128.size a
  slices_S256x20_o0_19_S256x1 : S256x20.Slices ![0, 19] S256x1
  inb_S256x20x128_S256x1x128_0_19_0 : ∀ a, (![0, 19, 0] : Fin 3 → Nat) a + S256x1x128.size a ≤ S256x20x128.size a
  scatter_S128x200_S1_S119x200_01_n_0_0_wf : ScatterDims.WF S128x200 S1 S119x200 [0, 1] [] [0] 0
  dot_S128x200_S128x200_S128x128_1_1_0_0_n_n_wf : DotDims.WF S128x200 S128x200 S128x128 [1] [1] [0] [0] [] []
  dot_S256x128_S128x128_S256x128_1_0_0_1_n_n_wf : DotDims.WF S256x128 S128x128 S256x128 [1] [0] [0] [1] [] []
  dot_S256x64_S64x128_S256x128_1_0_0_1_n_n_wf : DotDims.WF S256x64 S64x128 S256x128 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x20.size a ≤ S16384x20.size a
  hwx1_0 : ∀ i : grid1.Coords, EltTy.bits .i32 = 32 ∨ (Rect.block (s := S16384x20) S256x20.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x20.size a ≤ S16384x20.size a
  hwx1_1 : ∀ i : grid1.Coords, EltTy.bits .f32 = 32 ∨ (Rect.block (s := S16384x20) S256x20.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x128.size a ≤ S64x128.size a
  hwx1_5 : ∀ i : grid1.Coords, EltTy.bits .f32 = 32 ∨ (Rect.block (s := S64x128) S64x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x20x128.size a ≤ S16384x20x128.size a
  hwx1_6 : ∀ i : grid1.Coords, EltTy.bits .f32 = 32 ∨ (Rect.block (s := S16384x20x128) S256x20x128.size (cc1_transform_6 i) (hinb1_6 i)).WholeWords (EltTy.packing .f32)

variable [Facts₀]

def scatter_S128x200_S1_S119x200_01_n_0_0 : ScatterDims S128x200 S1 S119x200 where
  updateWindowDims := [0, 1]
  insertedWindowDims := []
  scatterDimsToOperandDims := [0]
  indexVectorDim := 0
  wf := scatter_S128x200_S1_S119x200_01_n_0_0_wf
def dot_S128x200_S128x200_S128x128_1_1_0_0_n_n : DotDims S128x200 S128x200 S128x128 where
  lhsContracting := [1]
  rhsContracting := [1]
  lhsNonContracting := [0]
  rhsNonContracting := [0]
  lhsBatch := []
  rhsBatch := []
  wf := dot_S128x200_S128x200_S128x128_1_1_0_0_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x64_S64x128_S256x128_1_0_0_1_n_n : DotDims S256x64 S64x128 S256x128 where
  lhsContracting := [1]
  rhsContracting := [0]
  lhsNonContracting := [0]
  rhsNonContracting := [1]
  lhsBatch := []
  rhsBatch := []
  wf := dot_S256x64_S64x128_S256x128_1_0_0_1_n_n_wf

abbrev win0_0 : Pipeline.Window sig grid0 :=
  Pipeline.Window.whole (Memref.whole main_v2) false false (stage0_0 0) (sem0_0 0) (Memref.isWhole_whole _) (hstage0_0 0)

abbrev win0_1 : Pipeline.Window sig grid0 :=
  Pipeline.Window.whole (Memref.whole main_arg3) false false (stage0_1 0) (sem0_1 0) (Memref.isWhole_whole _) (hstage0_1 0)

abbrev win0_2 : Pipeline.Window sig grid0 :=
  Pipeline.Window.whole (Memref.whole main_v4) false false (stage0_2 0) (sem0_2 0) (Memref.isWhole_whole _) (hstage0_2 0)

abbrev win0_3 : Pipeline.Window sig grid0 :=
  Pipeline.Window.whole (Memref.whole main_v5) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S256x20.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S256x20.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S64x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v9) S256x20x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S16384x20 : Shape := ⟨2, ![16384, 20]⟩
abbrev S119x200 : Shape := ⟨2, ![119, 200]⟩
abbrev S128x200 : Shape := ⟨2, ![128, 200]⟩
abbrev S128 : Shape := ⟨1, ![128]⟩
abbrev S64x1 : Shape := ⟨2, ![64, 1]⟩
abbrev S64 : Shape := ⟨1, ![64]⟩
abbrev S128x64 : Shape := ⟨2, ![128, 64]⟩
abbrev S_ : Shape := ⟨0, ![]⟩
abbrev S16384x20x1 : Shape := ⟨3, ![16384, 20, 1]⟩
abbrev S1 : Shape := ⟨1, ![1]⟩
abbrev S1x1x1 : Shape := ⟨3, ![1, 1, 1]⟩
abbrev S16384x20x200 : Shape := ⟨3, ![16384, 20, 200]⟩
abbrev S16384x20x128 : Shape := ⟨3, ![16384, 20, 128]⟩
abbrev S1x1x128 : Shape := ⟨3, ![1, 1, 128]⟩
abbrev S16384x20x64 : Shape := ⟨3, ![16384, 20, 64]⟩
abbrev S1x1x64 : Shape := ⟨3, ![1, 1, 64]⟩

abbrev nBuf : Space → Nat
  | .hbm => 55
  | .vmem => 0
  | .smem => 0
  | _ => 0

abbrev bufTy : (tb : Table) → Fin (tcTables nBuf tb) → BufTy
  | .hbm, ⟨0, _⟩ => ⟨S16384x20, .i32⟩
  | .hbm, ⟨1, _⟩ => ⟨S16384x20, .f32⟩
  | .hbm, ⟨2, _⟩ => ⟨S119x200, .f32⟩
  | .hbm, ⟨3, _⟩ => ⟨S128x200, .f32⟩
  | .hbm, ⟨4, _⟩ => ⟨S128, .f32⟩
  | .hbm, ⟨5, _⟩ => ⟨S64x1, .f32⟩
  | .hbm, ⟨6, _⟩ => ⟨S64, .f32⟩
  | .hbm, ⟨7, _⟩ => ⟨S128x64, .f32⟩
  | .hbm, ⟨8, _⟩ => ⟨S128, .f32⟩
  | .hbm, ⟨9, _⟩ => ⟨S_, .i32⟩
  | .hbm, ⟨10, _⟩ => ⟨S16384x20, .i32⟩
  | .hbm, ⟨11, _⟩ => ⟨S16384x20, .i1⟩
  | .hbm, ⟨12, _⟩ => ⟨S_, .i32⟩
  | .hbm, ⟨13, _⟩ => ⟨S16384x20, .i32⟩
  | .hbm, ⟨14, _⟩ => ⟨S16384x20, .i32⟩
  | .hbm, ⟨15, _⟩ => ⟨S16384x20, .i32⟩
  | .hbm, ⟨16, _⟩ => ⟨S16384x20x1, .i32⟩
  | .hbm, ⟨17, _⟩ => ⟨S1, .i32⟩
  | .hbm, ⟨18, _⟩ => ⟨S_, .i32⟩
  | .hbm, ⟨19, _⟩ => ⟨S16384x20x1, .i32⟩
  | .hbm, ⟨20, _⟩ => ⟨S16384x20x1, .i1⟩
  | .hbm, ⟨21, _⟩ => ⟨S1x1x1, .i32⟩
  | .hbm, ⟨22, _⟩ => ⟨S16384x20x1, .i32⟩
  | .hbm, ⟨23, _⟩ => ⟨S16384x20x1, .i1⟩
  | .hbm, ⟨24, _⟩ => ⟨S16384x20x1, .i1⟩
  | .hbm, ⟨25, _⟩ => ⟨S_, .i1⟩
  | .hbm, ⟨26, _⟩ => ⟨S16384x20, .i1⟩
  | .hbm, ⟨27, _⟩ => ⟨S16384x20x200, .f32⟩
  | .hbm, ⟨28, _⟩ => ⟨S16384x20x200, .i1⟩
  | .hbm, ⟨29, _⟩ => ⟨S_, .f32⟩
  | .hbm, ⟨30, _⟩ => ⟨S16384x20x200, .f32⟩
  | .hbm, ⟨31, _⟩ => ⟨S16384x20x200, .f32⟩
  | .hbm, ⟨32, _⟩ => ⟨S16384x20x128, .f32⟩
  | .hbm, ⟨33, _⟩ => ⟨S1x1x128, .f32⟩
  | .hbm, ⟨34, _⟩ => ⟨S16384x20x128, .f32⟩
  | .hbm, ⟨35, _⟩ => ⟨S16384x20x128, .f32⟩
  | .hbm, ⟨36, _⟩ => ⟨S16384x20x1, .f32⟩
  | .hbm, ⟨37, _⟩ => ⟨S16384x20x64, .f32⟩
  | .hbm, ⟨38, _⟩ => ⟨S1x1x64, .f32⟩
  | .hbm, ⟨39, _⟩ => ⟨S16384x20x64, .f32⟩
  | .hbm, ⟨40, _⟩ => ⟨S16384x20x64, .f32⟩
  | .hbm, ⟨41, _⟩ => ⟨S16384x20x64, .f32⟩
  | .hbm, ⟨42, _⟩ => ⟨S16384x20x64, .f32⟩
  | .hbm, ⟨43, _⟩ => ⟨S_, .f32⟩
  | .hbm, ⟨44, _⟩ => ⟨S16384x20x64, .f32⟩
  | .hbm, ⟨45, _⟩ => ⟨S16384x20x64, .f32⟩
  | .hbm, ⟨46, _⟩ => ⟨S_, .f32⟩
  | .hbm, ⟨47, _⟩ => ⟨S16384x20x64, .f32⟩
  | .hbm, ⟨48, _⟩ => ⟨S16384x20x64, .f32⟩
  | .hbm, ⟨49, _⟩ => ⟨S16384x20x64, .f32⟩
  | .hbm, ⟨50, _⟩ => ⟨S16384x20x128, .f32⟩
  | .hbm, ⟨51, _⟩ => ⟨S1x1x128, .f32⟩
  | .hbm, ⟨52, _⟩ => ⟨S16384x20x128, .f32⟩
  | .hbm, ⟨53, _⟩ => ⟨S16384x20x128, .f32⟩
  | .hbm, ⟨54, _⟩ => ⟨S16384x20x128, .f32⟩
  | _, _ => ⟨S16384x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_cst : Ref sig .tc := ⟨.hbm, 43, rfl⟩
abbrev main_v12 : Ref sig .tc := ⟨.hbm, 44, rfl⟩
abbrev main_v13 : Ref sig .tc := ⟨.hbm, 45, rfl⟩
abbrev main_cst_0 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩

abbrev nD : Nat := 1
abbrev τ : Topo := Topo.v7x

variable {F : FTy → Type} [FloatOps F]

class Facts₀ : Prop where
  bcast_S_S16384x20 : S_.BroadcastsInDim S16384x20 (![] : Fin 0 → Fin S16384x20.rank)
  bcast_S16384x20_S16384x20x1_0_1 : S16384x20.BroadcastsInDim S16384x20x1 (![0, 1] : Fin 2 → Fin S16384x20x1.rank)
  bcast_S_S16384x20x1 : S_.BroadcastsInDim S16384x20x1 (![] : Fin 0 → Fin S16384x20x1.rank)
  bcast_S1_S1x1x1_2 : S1.BroadcastsInDim S1x1x1 (![2] : Fin 1 → Fin S1x1x1.rank)
  bcast_S1x1x1_S16384x20x1_0_1_2 : S1x1x1.BroadcastsInDim S16384x20x1 (![0, 1, 2] : Fin 3 → Fin S16384x20x1.rank)
  reducesTo_S16384x20x1_S16384x20_d2 : S16384x20x1.ReducesTo [2] S16384x20
  h_S_ : 0 < S_.numel
  bcast_S16384x20_S16384x20x200_0_1 : S16384x20.BroadcastsInDim S16384x20x200 (![0, 1] : Fin 2 → Fin S16384x20x200.rank)
  bcast_S_S16384x20x200 : S_.BroadcastsInDim S16384x20x200 (![] : Fin 0 → Fin S16384x20x200.rank)
  bcast_S128_S1x1x128_2 : S128.BroadcastsInDim S1x1x128 (![2] : Fin 1 → Fin S1x1x128.rank)
  bcast_S1x1x128_S16384x20x128_0_1_2 : S1x1x128.BroadcastsInDim S16384x20x128 (![0, 1, 2] : Fin 3 → Fin S16384x20x128.rank)
  bcast_S64_S1x1x64_2 : S64.BroadcastsInDim S1x1x64 (![2] : Fin 1 → Fin S1x1x64.rank)
  bcast_S1x1x64_S16384x20x64_0_1_2 : S1x1x64.BroadcastsInDim S16384x20x64 (![0, 1, 2] : Fin 3 → Fin S16384x20x64.rank)
  bcast_S_S16384x20x64 : S_.BroadcastsInDim S16384x20x64 (![] : Fin 0 → Fin S16384x20x64.rank)
  gather_S119x200_S16384x20x1_S16384x20x200_2_0_n_n_0_2_1200_wf : GatherDims.WF S119x200 S16384x20x1 S16384x20x200 [2] [0] [] [0] [] 2 ![1, 200]
  dot_S16384x20x200_S128x200_S16384x20x128_2_1_01_0_n_n_wf : DotDims.WF S16384x20x200 S128x200 S16384x20x128 [2] [1] [0, 1] [0] [] []
  dot_S16384x20x1_S64x1_S16384x20x64_2_1_01_0_n_n_wf : DotDims.WF S16384x20x1 S64x1 S16384x20x64 [2] [1] [0, 1] [0] [] []
  dot_S16384x20x64_S128x64_S16384x20x128_2_1_01_0_n_n_wf : DotDims.WF S16384x20x64 S128x64 S16384x20x128 [2] [1] [0, 1] [0] [] []

variable [Facts₀]

def gather_S119x200_S16384x20x1_S16384x20x200_2_0_n_n_0_2_1200 : GatherDims S119x200 S16384x20x1 S16384x20x200 where
  offsetDims := [2]
  collapsedSliceDims := [0]
  operandBatchingDims := []
  startIndicesBatchingDims := []
  startIndexMap := [0]
  indexVectorDim := 2
  sliceSizes := ![1, 200]
  wf := gather_S119x200_S16384x20x1_S16384x20x200_2_0_n_n_0_2_1200_wf
def dot_S16384x20x200_S128x200_S16384x20x128_2_1_01_0_n_n : DotDims S16384x20x200 S128x200 S16384x20x128 where
  lhsContracting := [2]
  rhsContracting := [1]
  lhsNonContracting := [0, 1]
  rhsNonContracting := [0]
  lhsBatch := []
  rhsBatch := []
  wf := dot_S16384x20x200_S128x200_S16384x20x128_2_1_01_0_n_n_wf
def dot_S16384x20x1_S64x1_S16384x20x64_2_1_01_0_n_n : DotDims S16384x20x1 S64x1 S16384x20x64 where
  lhsContracting := [2]
  rhsContracting := [1]
  lhsNonContracting := [0, 1]
  rhsNonContracting := [0]
  lhsBatch := []
  rhsBatch := []
  wf := dot_S16384x20x1_S64x1_S16384x20x64_2_1_01_0_n_n_wf
def dot_S16384x20x64_S128x64_S16384x20x128_2_1_01_0_n_n : DotDims S16384x20x64 S128x64 S16384x20x128 where
  lhsContracting := [2]
  rhsContracting := [1]
  lhsNonContracting := [0, 1]
  rhsNonContracting := [0]
  lhsBatch := []
  rhsBatch := []
  wf := dot_S16384x20x64_S128x64_S16384x20x128_2_1_01_0_n_n_wf

class Facts : Prop extends Facts₀ where

variable [Facts]
-- ==== Proof.Spec.lean ====
/-
  The element embedder as ONE function of its argument arrays, entry by entry, on the extended reals.

  Position (b, l) of the batch carries an element number and a fraction. The element number selects a row of the
  119 x 200 feature table; `row b l : Fin 119` is that row. Entry (b, l, d) of the result is the sum of two affine
  layers:

    element part  : sum over the 200 features f of  cbfv[row b l, f] * W[d, f],  plus pb[d]
    fraction part : sum over the 64 hidden units h of  hid b l h * w2[d, h],      plus b2[d]

  where the hidden unit is  hid b l h = z * logistic z  at  z = frac[b, l] * w1[h, 0] + b1[h]  (x * logistic x is the
  SiLU), and logistic z = 1 / (1 + exp (-z)) on the extended reals.

  `embAt` groups the four summands as (element sum + pb) + (fraction sum + b2); `embAt_regroup` is the same number
  with the two biases added to each other first and then to the element sum. Addition of extended reals is
  commutative and associative, so the regrouping holds at every argument, the infinities included.
-/
import Idealize.ShloMosaic.PureOps.Ideal
import Idealize.ShloMosaic.Lib.ValueIdx

noncomputable section

open scoped BigOperators

namespace Cert.Embed

open Idealize.ShloMosaic Idealize.ShloMosaic.ValueIdx

/-- The hidden unit `h` of position `(b, l)`: the fraction through the affine map of unit `h`, then `z * logistic z`. -/
def hid (frac : FVec Ideal ⟨2, ![16384, 20]⟩ .f32) (w1 : FVec Ideal ⟨2, ![64, 1]⟩ .f32) (b1 : FVec Ideal ⟨1, ![64]⟩ .f32)
    (b : Fin 16384) (l : Fin 20) (h : Fin 64) : EReal :=
  (frac (ix2 b l) * w1 (ix2 h 0) + b1 (ix1 h)) * Ideal.logistic (frac (ix2 b l) * w1 (ix2 h 0) + b1 (ix1 h))

/-- The element part before its bias: row `r` of the feature table against row `d` of the projection. -/
def proj (cbfv : FVec Ideal ⟨2, ![119, 200]⟩ .f32) (W : FVec Ideal ⟨2, ![128, 200]⟩ .f32) (r : Fin 119) (d : Fin 128) : EReal :=
  ∑ f : Fin 200, cbfv (ix2 r f) * W (ix2 d f)

/-- The fraction part before its bias: the 64 hidden units of position `(b, l)` against row `d` of the second layer. -/
def mlp (frac : FVec Ideal ⟨2, ![16384, 20]⟩ .f32) (w1 : FVec Ideal ⟨2, ![64, 1]⟩ .f32) (b1 : FVec Ideal ⟨1, ![64]⟩ .f32)
    (w2 : FVec Ideal ⟨2, ![128, 64]⟩ .f32) (b : Fin 16384) (l : Fin 20) (d : Fin 128) : EReal :=
  ∑ h : Fin 64, hid frac w1 b1 b l h * w2 (ix2 d h)

/-- Entry `(b, l, d)` of the result: (element sum + pb) + (fraction sum + b2). -/
def embAt (row : Fin 16384 → Fin 20 → Fin 119) (frac : FVec Ideal ⟨2, ![16384, 20]⟩ .f32)
    (cbfv : FVec Ideal ⟨2, ![119, 200]⟩ .f32) (W : FVec Ideal ⟨2, ![128, 200]⟩ .f32) (pb : FVec Ideal ⟨1, ![128]⟩ .f32)
    (w1 : FVec Ideal ⟨2, ![64, 1]⟩ .f32) (b1 : FVec Ideal ⟨1, ![64]⟩ .f32) (w2 : FVec Ideal ⟨2, ![128, 64]⟩ .f32)
    (b2 : FVec Ideal ⟨1, ![128]⟩ .f32) (b : Fin 16384) (l : Fin 20) (d : Fin 128) : EReal :=
  (proj cbfv W (row b l) d + pb (ix1 d)) + (mlp frac w1 b1 w2 b l d + b2 (ix1 d))

/-- The whole result array. -/
def emb (row : Fin 16384 → Fin 20 → Fin 119) (frac : FVec Ideal ⟨2, ![16384, 20]⟩ .f32)
    (cbfv : FVec Ideal ⟨2, ![119, 200]⟩ .f32) (W : FVec Ideal ⟨2, ![128, 200]⟩ .f32) (pb : FVec Ideal ⟨1, ![128]⟩ .f32)
    (w1 : FVec Ideal ⟨2, ![64, 1]⟩ .f32) (b1 : FVec Ideal ⟨1, ![64]⟩ .f32) (w2 : FVec Ideal ⟨2, ![128, 64]⟩ .f32)
    (b2 : FVec Ideal ⟨1, ![128]⟩ .f32) : FVec Ideal ⟨3, ![16384, 20, 128]⟩ .f32 :=
  fun i => embAt row frac cbfv W pb w1 b1 w2 b2 (i 0) (i 1) (i 2)

theorem emb_ix3 (row : Fin 16384 → Fin 20 → Fin 119) (frac : FVec Ideal ⟨2, ![16384, 20]⟩ .f32)
    (cbfv : FVec Ideal ⟨2, ![119, 200]⟩ .f32) (W : FVec Ideal ⟨2, ![128, 200]⟩ .f32) (pb : FVec Ideal ⟨1, ![128]⟩ .f32)
    (w1 : FVec Ideal ⟨2, ![64, 1]⟩ .f32) (b1 : FVec Ideal ⟨1, ![64]⟩ .f32) (w2 : FVec Ideal ⟨2, ![128, 64]⟩ .f32)
    (b2 : FVec Ideal ⟨1, ![128]⟩ .f32) (b : Fin 16384) (l : Fin 20) (d : Fin 128) :
    emb row frac cbfv W pb w1 b1 w2 b2 (ix3 b l d) = embAt row frac cbfv W pb w1 b1 w2 b2 b l d := rfl

/-- The same entry with the two biases added to each other first: (element sum + (pb + b2)) + fraction sum. -/
theorem embAt_regroup (row : Fin 16384 → Fin 20 → Fin 119) (frac : FVec Ideal ⟨2, ![16384, 20]⟩ .f32)
    (cbfv : FVec Ideal ⟨2, ![119, 200]⟩ .f32) (W : FVec Ideal ⟨2, ![128, 200]⟩ .f32) (pb : FVec Ideal ⟨1, ![128]⟩ .f32)
    (w1 : FVec Ideal ⟨2, ![64, 1]⟩ .f32) (b1 : FVec Ideal ⟨1, ![64]⟩ .f32) (w2 : FVec Ideal ⟨2, ![128, 64]⟩ .f32)
    (b2 : FVec Ideal ⟨1, ![128]⟩ .f32) (b : Fin 16384) (l : Fin 20) (d : Fin 128) :
    (proj cbfv W (row b l) d + (pb (ix1 d) + b2 (ix1 d))) + mlp frac w1 b1 w2 b l d
      = embAt row frac cbfv W pb w1 b1 w2 b2 b l d := by
  unfold embAt
  ac_rfl

end Cert.Embed

end
-- ==== Proof.PreIdx.lean ====
/-
  The index-range conjunct of the precondition, decoded. The precondition is a conjunction of
  scalar bits stated to be 1; its last conjunct is the conjunction, over all 16384 × 20 element
  indices, of "0 ≤ index, read signed" and "index < 119, read signed". So every element index is a
  32-bit word whose unsigned value is below 119, i.e. the word of some `Fin 119`.
-/
import proofs.«179271_g70540542870206_cont_9to1c4b_451_4_alg».proof.Defs
import Idealize.ShloMosaic.Lib.ReduceAll
import Idealize.ShloMosaic.Lib.ValueIdx

namespace Cert.PreIdx

open Idealize.ShloMosaic

/-- The rank-0 shape has exactly one index. -/
instance : Subsingleton Cert.Pre_finite_inputs.S_.Idx := ⟨fun _ _ => funext fun d => d.elim0⟩

/-- A 32-bit word that is at least 0 and below 119 read signed is below 119 read unsigned: a
    nonnegative signed reading has the top bit clear, so both readings agree. -/
theorem toNat_lt_of_signed (x : BitVec 32) (h0 : IntOp.cmpi .sge x 0#32 = 1#1)
    (h1 : IntOp.cmpi .slt x 119#32 = 1#1) : x.toNat < 119 := by
  rw [IntOp.cmpi_sge, show (0#32 : BitVec 32).toInt = 0 from by decide] at h0
  rw [IntOp.cmpi_slt, show (119#32 : BitVec 32).toInt = 119 from by decide] at h1
  have hlt : 2 * x.toNat < 2 ^ 32 := BitVec.toInt_pos_iff.mp h0
  rw [BitVec.toInt_eq_toNat_of_lt hlt] at h1
  omega

/-- Under the precondition every element index lies in [0, 119): on each device there is a table
    `row` of `Fin 119`s whose words are the entries of the index array. -/
theorem row_of_pre (m : (ℓ : Loc Cert.KernelIdeal.nD Cert.KernelIdeal.τ Cert.KernelIdeal.sig) → Buf (Elt Ideal) ℓ)
    [hPre_finite_inputs : Cert.Pre_finite_inputs.Facts] (h : Cert.Pre_KernelIdeal m) (c : Dev Cert.KernelIdeal.nD) :
    ∃ row : Fin 16384 → Fin 20 → Fin 119, ∀ (b : Fin 16384) (l : Fin 20),
      (m ((c.tc : Thread Cert.KernelIdeal.nD Cert.KernelIdeal.τ).loc Cert.KernelIdeal.main_arg0))
          (Idealize.ShloMosaic.ValueIdx.ix2 b l) = BitVec.ofNat 32 (row b l).val := by
  -- the precondition's one bit, as the conjunction it was printed as
  have e := congrFun (h c) ValueIdx.ix0
  dsimp only [Cert.Pre_finite_inputs.fn, Cert.Pre_finite_inputs.fn_part1, Cert.Pre_finite_inputs.fn_part2] at e
  -- its last conjunct: the conjunction over all element indices of the two range tests
  have e2 := (IntOp.andi_eq_one.mp e).2
  have key := fun i => Host.reduce_andi_all _ _ _ _ _ e2 i
  have hlt : ∀ (b : Fin 16384) (l : Fin 20),
      ((m ((c.tc : Thread Cert.KernelIdeal.nD Cert.KernelIdeal.τ).loc Cert.KernelIdeal.main_arg0))
        (ValueIdx.ix2 b l)).toNat < 119 := fun b l =>
    have hk := IntOp.andi_eq_one.mp (key (ValueIdx.ix2 b l))
    toNat_lt_of_signed _ hk.1 hk.2
  refine ⟨fun b l => ⟨_, hlt b l⟩, fun b l => ?_⟩
  exact BitVec.eq_of_toNat_eq (by rw [BitVec.toNat_ofNat, Nat.mod_eq_of_lt (BitVec.isLt _)])

end Cert.PreIdx
-- ==== Proof.KRun.lean ====
/-
  The kernel's value run. The kernel program is two stretches of host operations and two
  TensorCore regions. The imported frame module names the contents of every buffer at each
  boundary between these four segments (W0 … W4) and supplies each segment's triple over the
  thread state "every unscoped buffer holds the boundary's contents". Launching the four
  segments from an arbitrary memory therefore ends in a state whose unscoped buffers hold the
  last boundary's contents W4. Here that final state is read at ten buffers: the result buffer,
  which is the array of window 6 of the second region, so W4 there is what that region's
  write-backs leave in it after all of its grid points; and the nine argument buffers, where W4
  walks back to the launch memory.
-/
import proofs.«179271_g70540542870206_cont_9to1c4b_451_4_alg».proof.Proof.Gen.KernelIdeal.Frame

set_option maxRecDepth 16384

noncomputable section

namespace Cert.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The result buffer is the array of the second region's window 6. -/
theorem arrRef_out : Pipeline.arrRef spec1 6 = main_v9 := rfl

/-- The last boundary's contents at the result buffer: what the second region's write-backs to
    window 6 leave after all of its grid points. -/
theorem W4_out (m : (ℓ : Loc nD τ sig) → Buf (Elt F) ℓ) (ρ : Dev nD → PrngReg) (c : Dev nD) :
    W4 m ρ c (Proc.devRef .tc main_v9) = (dat1 (V3 m ρ) c).arrAt 6 cfg1.N :=
  W4_arr m ρ c 6

set_option backward.isDefEq.respectTransparency.types false in
/-- From any memory with zero counters, every weakly fair execution of the kernel on the TensorCores
    terminates without fault; in every final state the result buffer holds the second region's final
    array of window 6 (computed from that region's entry contents `V3`), and each argument buffer holds
    what it held at launch. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v9) = (dat1 (V3 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    -- the launch resource: the initial cell record, and nothing per core
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    -- the first thread state: the launch memory's unscoped buffers are the first boundary's contents
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    -- the last thread state read against a final state: every unscoped buffer holds W4
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    -- W4 at the result buffer is the second region's final array of window 6; at an argument, the launch memory
    (hQ := fun s h c =>
      ⟨(h c _ (mem_uc main_v9 (by decide))).trans (W4_out m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KValue

end
-- ==== Proof.KBridge.lean ====
/-
  From the kernel's arrangement to the specification, entry by entry.

  The kernel forms, for position (b, l) and output feature d,
      sum over lanes k < 128 of [idx(b, l) = k] * tab(k, d)   +   sum over h < 64 of silu(z h) * w2t(h, d),
  where tab is the projected table with BOTH biases already added to every row:
      tab(r, d) = (sum over f of cbfv(r, f) * W(d, f)) + (pb(d) + b2(d))      for a row r < 119,
  the two 1 x 64 rows are the first layer's weights and biases read as rows, and w2t is the second layer transposed.

  When the element number of (b, l) is `row b l` (< 119 <= 128, so it is one of the lanes and no two lanes share its
  32-bit word), exactly one indicator is 1: 0 * x = 0 and 1 * x = x on the extended reals, so the lane sum is
  tab(row b l, d). Renaming the rows and the transposed matrix turns the second sum into the specification's, and
  regrouping the four summands (addition is commutative and associative) gives `Cert.Embed.embAt`.
-/
import proofs.«179271_g70540542870206_cont_9to1c4b_451_4_alg».proof.Proof.Spec

noncomputable section

open scoped BigOperators

namespace Cert.KBridge

open Idealize.ShloMosaic Idealize.ShloMosaic.ValueIdx Cert.Embed

/-- Two numbers below 2^32 with the same 32-bit word are equal. -/
theorem ofNat_inj_of_lt {a k : ℕ} (ha : a < 4294967296) (hk : k < 4294967296) (h : BitVec.ofNat 32 a = BitVec.ofNat 32 k) : a = k := by
  have := congrArg BitVec.toNat h
  simp only [BitVec.toNat_ofNat] at this
  omega

/-- The lane sum picks the lane of the element number. -/
theorem lane_sum (x : BitVec 32) (a : Fin 128) (hx : x = BitVec.ofNat 32 a.val) (t : Fin 128 → EReal) :
    (∑ k : Fin 128, (if x = BitVec.ofNat 32 k.val then (1 : EReal) else 0) * t k) = t a := by
  rw [Finset.sum_eq_single a]
  · rw [if_pos hx, one_mul]
  · intro k _ hka
    have hne : ¬ x = BitVec.ofNat 32 k.val := fun h => hka (Fin.ext (ofNat_inj_of_lt (by omega) (by omega) (hx.symm.trans h)).symm)
    rw [if_neg hne, zero_mul]
  · intro h; exact absurd (Finset.mem_univ a) h

theorem whole_eq_embAt (row : Fin 16384 → Fin 20 → Fin 119)
    (idx : (⟨2, ![16384, 20]⟩ : Shape).Idx → BitVec 32) (frac : FVec Ideal ⟨2, ![16384, 20]⟩ .f32)
    (cbfv : FVec Ideal ⟨2, ![119, 200]⟩ .f32) (W : FVec Ideal ⟨2, ![128, 200]⟩ .f32) (pb : FVec Ideal ⟨1, ![128]⟩ .f32)
    (w1 : FVec Ideal ⟨2, ![64, 1]⟩ .f32) (b1 : FVec Ideal ⟨1, ![64]⟩ .f32) (w2 : FVec Ideal ⟨2, ![128, 64]⟩ .f32)
    (b2 : FVec Ideal ⟨1, ![128]⟩ .f32)
    (tab : (⟨2, ![128, 128]⟩ : Shape).Idx → EReal) (w1r b1r : (⟨2, ![1, 64]⟩ : Shape).Idx → EReal)
    (w2t : (⟨2, ![64, 128]⟩ : Shape).Idx → EReal)
    (hrow : ∀ b l, idx (ix2 b l) = BitVec.ofNat 32 (row b l).val)
    (htab : ∀ (r : Fin 119) (d : Fin 128), tab (ix2 (⟨r.val, by omega⟩ : Fin 128) d) = proj cbfv W r d + (pb (ix1 d) + b2 (ix1 d)))
    (hw1 : ∀ h : Fin 64, w1r (ix2 (0 : Fin 1) h) = w1 (ix2 h (0 : Fin 1)))
    (hb1 : ∀ h : Fin 64, b1r (ix2 (0 : Fin 1) h) = b1 (ix1 h))
    (hw2 : ∀ (h : Fin 64) (d : Fin 128), w2t (ix2 h d) = w2 (ix2 d h))
    (b : Fin 16384) (l : Fin 20) (d : Fin 128) :
    (∑ k : Fin 128, (if idx (ix2 b l) = BitVec.ofNat 32 k.val then (1 : EReal) else 0) * tab (ix2 k d))
      + ∑ h : Fin 64, ((frac (ix2 b l) * w1r (ix2 (0 : Fin 1) h) + b1r (ix2 (0 : Fin 1) h))
          * Ideal.logistic (frac (ix2 b l) * w1r (ix2 (0 : Fin 1) h) + b1r (ix2 (0 : Fin 1) h))) * w2t (ix2 h d)
      = embAt row frac cbfv W pb w1 b1 w2 b2 b l d := by
  rw [lane_sum (idx (ix2 b l)) (⟨(row b l).val, by omega⟩ : Fin 128) (hrow b l) (fun k => tab (ix2 k d)), htab (row b l) d]
  rw [← embAt_regroup]
  refine congrArg₂ (· + ·) rfl ?_
  unfold mlp hid
  refine Finset.sum_congr rfl fun h _ => ?_
  rw [hw1, hb1, hw2]

end Cert.KBridge

end
-- ==== Proof.LibMatmulSum.lean ====
/-
  A plain matrix product  [n, K] x [K, w] -> [n, w]  at the ideal values, for any contraction length K and whichever
  record of dimension numbers spells it: the sum over the record's own contraction index, read at entry (p, q), is the
  sum over k < K of left(p, k) * right(k, q).  A kernel's matrix-unit product into a zero accumulator is that sum.
  The record enters only through six facts about its index maps (one contracted axis of extent K; the left operand
  contracted on its axis 1, the right on its axis 0; the result's axes the left's axis 0 and the right's axis 1).
-/
import Idealize.ShloMosaic.PureOps.Ideal.Laws
import Idealize.ShloMosaic.Lib.Pipeline.Value
import Idealize.ShloMosaic.Lib.ValueIdx

noncomputable section

namespace Cert.LibMatmulSum

open Idealize.ShloMosaic Idealize.ShloMosaic.ValueIdx

/-- The index facts of a plain product with contraction length `K`. -/
structure Plain {n K w : ℕ} (d : DotDims ⟨2, ![n, K]⟩ ⟨2, ![K, w]⟩ ⟨2, ![n, w]⟩) : Prop where
  rank : d.contr.rank = 1
  size : d.contr.size ⟨0, by rw [rank]; exact Nat.one_pos⟩ = K
  l0 : ∀ (i : (⟨2, ![n, w]⟩ : Shape).Idx) (q : d.contr.Idx), (d.lhsIdx i q 0).val = (i 0).val
  l1 : ∀ (i : (⟨2, ![n, w]⟩ : Shape).Idx) (q : d.contr.Idx), (d.lhsIdx i q 1).val = (q ⟨0, by rw [rank]; exact Nat.one_pos⟩).val
  r0 : ∀ (i : (⟨2, ![n, w]⟩ : Shape).Idx) (q : d.contr.Idx), (d.rhsIdx i q 0).val = (q ⟨0, by rw [rank]; exact Nat.one_pos⟩).val
  r1 : ∀ (i : (⟨2, ![n, w]⟩ : Shape).Idx) (q : d.contr.Idx), (d.rhsIdx i q 1).val = (i 1).val

/-- The contraction sum at entry (p, q), re-indexed by k < K. -/
theorem sum_eq {n K w : ℕ} {d : DotDims ⟨2, ![n, K]⟩ ⟨2, ![K, w]⟩ ⟨2, ![n, w]⟩} (hd : Plain d)
    (l : (⟨2, ![n, K]⟩ : Shape).Idx → EReal) (r : (⟨2, ![K, w]⟩ : Shape).Idx → EReal) (p : Fin n) (q : Fin w) :
    (∑ k : d.contr.Idx, l (d.lhsIdx (ix2 p q) k) * r (d.rhsIdx (ix2 p q) k)) = ∑ k : Fin K, l (ix2 p k) * r (ix2 k q) := by
  rw [← Equiv.sum_comp (contrEquiv1 d K hd.rank hd.size).symm]
  refine Finset.sum_congr rfl fun k _ => ?_
  have hk := contrEquiv1_symm_val d K hd.rank hd.size k
  have el : d.lhsIdx (ix2 p q) ((contrEquiv1 d K hd.rank hd.size).symm k) = ix2 p k := funext fun a => Fin.ext (by
    match a with
    | ⟨0, _⟩ => exact hd.l0 _ _
    | ⟨1, _⟩ => exact (hd.l1 _ _).trans hk)
  have er : d.rhsIdx (ix2 p q) ((contrEquiv1 d K hd.rank hd.size).symm k) = ix2 k q := funext fun a => Fin.ext (by
    match a with
    | ⟨0, _⟩ => exact (hd.r0 _ _).trans hk
    | ⟨1, _⟩ => exact hd.r1 _ _)
  rw [el, er]

/-- A matrix-unit product into the zero accumulator, at entry (p, q). -/
theorem matmul_zero_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    FloatOps.matmul d prec l r (constant ⟨2, ![n, w]⟩ .f32 0x00000000#32) (ix2 p q) = ∑ k : Fin K, l (ix2 p k) * r (ix2 k q) :=
  (Ideal.matmul_constant_zero_apply d prec l r (ix2 p q)).trans (sum_eq hd l r p q)

end Cert.LibMatmulSum

end
-- ==== Proof.LibKeepdims.lean ====
/-
  Two layout facts for a row-wise reduction kept as a column: a vector of length a read as an a × 1 column, and an a × 1
  column repeated along b columns. Both are stated at an explicit index (row p, column c), over any element type.
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KSlab.lean ====
/-
  One column of the output block, as a function of the six blocks the body loads.

  For a column l < 20 the body takes column l of the element numbers (256 x 1), repeats it along 128 lanes and
  compares it with the lane number: row r of the result is the indicator of the lane equal to the element number of
  (r, l). That indicator matrix times the 128 x 128 table picks the table row of the element. Column l of the
  fractions goes through the affine map of the 64 hidden units, then z * logistic z, then the 64 x 128 second layer.
  The sum of the two products is stored as the 256 x 1 x 128 slab of column l.

  `slabVec` is that computation with the column's slice offset as a parameter; `slabVec_apply` reads it at
  (r, 0, d):  sum over lanes k of [idx(r, l) = k] * table(k, d)  +  sum over h of (z h * logistic (z h)) * w2t(h, d),
  with z h = frac(r, l) * w1(0, h) + b1(0, h). Changes of float format are the identity on the extended reals.
-/
import proofs.«179271_g70540542870206_cont_9to1c4b_451_4_alg».proof.Proof.Gen.KernelIdeal.Skeleton
import proofs.«179271_g70540542870206_cont_9to1c4b_451_4_alg».proof.Proof.LibMatmulSum
import proofs.«179271_g70540542870206_cont_9to1c4b_451_4_alg».proof.Proof.LibKeepdims
import Idealize.ShloMosaic.Lib.ValueLayout
import Idealize.ShloMosaic.Lib.Pipeline.Value

noncomputable section

open scoped BigOperators

namespace Cert.KSlab

open Idealize.ShloMosaic Idealize.ShloMosaic.ValueIdx Cert.KernelIdeal Cert.KernelIdeal.Gen

/-! ## The two matrix products are plain products -/

theorem plain_hot : Cert.LibMatmulSum.Plain (n := 256) (K := 128) (w := 128) dot_S256x128_S128x128_S256x128_1_0_0_1_n_n where
  rank := rfl
  size := rfl
  l0 := fun i q => by simp [DotDims.lhsIdx, dot_S256x128_S128x128_S256x128_1_0_0_1_n_n]; rfl
  l1 := fun i q => DotDims.lhsIdx_val_of_single _ (cl := 1) rfl i q
  r0 := fun i q => DotDims.rhsIdx_val_of_single _ (cr := 0) rfl i q
  r1 := fun i q => by simp [DotDims.rhsIdx, dot_S256x128_S128x128_S256x128_1_0_0_1_n_n]; rfl

theorem plain_mlp : Cert.LibMatmulSum.Plain (n := 256) (K := 64) (w := 128) dot_S256x64_S64x128_S256x128_1_0_0_1_n_n where
  rank := rfl
  size := rfl
  l0 := fun i q => by simp [DotDims.lhsIdx, dot_S256x64_S64x128_S256x128_1_0_0_1_n_n]; rfl
  l1 := fun i q => DotDims.lhsIdx_val_of_single _ (cl := 1) rfl i q
  r0 := fun i q => DotDims.rhsIdx_val_of_single _ (cr := 0) rfl i q
  r1 := fun i q => by simp [DotDims.rhsIdx, dot_S256x64_S64x128_S256x128_1_0_0_1_n_n]; rfl

/-! ## Layout operations of the body at an index -/

variable {α : Type}

/-- A 256 x 128 matrix viewed as 256 x 1 x 128 reads (r, u, d) at (r, d). -/
theorem slab_cast_apply (v : S256x128.Idx → α) (r : Fin 256) (u : Fin 1) (d : Fin 128) :
    shapeCast S256x1x128 v shapeCasts_S256x128_S256x1x128 (ix3 r u d) = v (ix2 r d) :=
  shapeCast_apply v shapeCasts_S256x128_S256x1x128 _ _ (by
    have hu : u.val = 0 := by omega
    rw [Shape.rowMajor_val_two, Shape.rowMajor_val_three]
    show r.val * 128 + d.val = (r.val * 1 + u.val) * 128 + d.val
    rw [hu]; omega)

/-- Column `l` of a 256 x 20 block, cut out as a 256 x 1 column, reads (r, u) at (r, l). -/
theorem column_apply (off : Fin S256x20.rank → Nat) (hs : S256x20.Slices off S256x1) (x : S256x20.Idx → α)
    (l : Fin 20) (h0 : off 0 = 0) (h1 : off 1 = l.val) (r : Fin 256) (u : Fin 1) :
    extractStridedSlice S256x1 off x hs (ix2 r u) = x (ix2 r l) :=
  extractStridedSlice_apply off x hs (ix2 r u) (ix2 r l) (fun a => by
    have hu : u.val = 0 := by omega
    match a with
    | ⟨0, _⟩ => show r.val = off 0 + r.val; rw [h0]; omega
    | ⟨1, _⟩ => show l.val = off 1 + u.val; rw [h1, hu]; omega)

/-! ## The column's computation -/

/-- The indicator matrix of column `off`: entry (r, k) says whether the element number of row r is lane k. -/
def hot (off : Fin S256x20.rank → Nat) (hs : S256x20.Slices off S256x1) (x0 : Vec Ideal S256x20 .i32) : FVec Ideal S256x128 .bf16 :=
  truncf .bf16 (sitofp .f32 (extui 32 (cmpi .eq (broadcastTo S256x128 (extractStridedSlice S256x1 off x0 hs) broadcasts_S256x1_S256x128)
    (iota .tc S256x128 32 [1] iota_S256x128_d1_w32)) natLt_1_32)) bitsLt_bf16_f32

/-- The hidden layer before its nonlinearity: the column's fraction through the 64 affine maps. -/
def pre (off : Fin S256x20.rank → Nat) (hs : S256x20.Slices off S256x1) (x1 : Vec Ideal S256x20 .f32) (x3 x4 : Vec Ideal S1x64 .f32) :
    FVec Ideal S256x64 .f32 :=
  addf (mulf (broadcastTo S256x64 (extractStridedSlice S256x1 off x1 hs) broadcasts_S256x1_S256x64)
      (broadcastTo S256x64 (shapeCast S1x64 x3 shapeCasts_S1x64_S1x64) broadcasts_S1x64_S256x64))
    (broadcastTo S256x64 (shapeCast S1x64 x4 shapeCasts_S1x64_S1x64) broadcasts_S1x64_S256x64)

/-- The slab the body stores for column `off`. -/
def slabVec (off : Fin S256x20.rank → Nat) (hs : S256x20.Slices off S256x1) (x0 : Vec Ideal S256x20 .i32) (x1 : Vec Ideal S256x20 .f32)
    (x2 : Vec Ideal S128x128 .f32) (x3 x4 : Vec Ideal S1x64 .f32) (x5 : Vec Ideal S64x128 .f32) : FVec Ideal S256x1x128 .f32 :=
  shapeCast S256x1x128
    (addf (matmul dot_S256x128_S128x128_S256x128_1_0_0_1_n_n none (hot off hs x0) (k1_pay2 x2) (constant S256x128 .f32 0x00000000#32))
      (matmul dot_S256x64_S64x128_S256x128_1_0_0_1_n_n none
        (truncf .bf16 (mulf (pre off hs x1 x3 x4) (logistic (pre off hs x1 x3 x4))) bitsLt_bf16_f32) (k1_pay3 x5)
        (constant S256x128 .f32 0x00000000#32)))
    shapeCasts_S256x128_S256x1x128

/-- Entry (r, d) of column `l`'s slab as a number. -/
def slabAt (x0 : Vec Ideal S256x20 .i32) (x1 : Vec Ideal S256x20 .f32) (x2 : Vec Ideal S128x128 .f32) (x3 x4 : Vec Ideal S1x64 .f32)
    (x5 : Vec Ideal S64x128 .f32) (l : Fin 20) (r : Fin 256) (d : Fin 128) : EReal :=
  (∑ k : Fin 128, (if x0 (ix2 r l) = BitVec.ofNat 32 k.val then (1 : EReal) else 0) * x2 (ix2 k d))
  + ∑ h : Fin 64, ((x1 (ix2 r l) * x3 (ix2 (0 : Fin 1) h) + x4 (ix2 (0 : Fin 1) h))
        * Ideal.logistic (x1 (ix2 r l) * x3 (ix2 (0 : Fin 1) h) + x4 (ix2 (0 : Fin 1) h))) * x5 (ix2 h d)

theorem hot_apply (off : Fin S256x20.rank → Nat) (hs : S256x20.Slices off S256x1) (x0 : Vec Ideal S256x20 .i32)
    (l : Fin 20) (h0 : off 0 = 0) (h1 : off 1 = l.val) (r : Fin 256) (k : Fin 128) :
    hot off hs x0 (ix2 r k) = if x0 (ix2 r l) = BitVec.ofNat 32 k.val then (1 : EReal) else 0 := by
  unfold hot
  show FloatOps.sitofp (F := Ideal) .f32 ((IntOp.cmpi .eq
      (broadcastTo S256x128 (extractStridedSlice S256x1 off x0 hs) broadcasts_S256x1_S256x128 (ix2 r k))
      (iota .tc S256x128 32 [1] iota_S256x128_d1_w32 (ix2 r k))).setWidth 32) = _
  rw [broadcastTo_a1_ab_apply, column_apply off hs x0 l h0 h1, iota_single_apply]
  show (((((IntOp.cmpi .eq (x0 (ix2 r l)) (BitVec.ofNat 32 k.val)).setWidth 32).toInt : ℝ)) : EReal) = _
  by_cases h : x0 (ix2 r l) = BitVec.ofNat 32 k.val
  · rw [if_pos h, h]; simp [IntOp.cmpi]
  · have hb : (x0 (ix2 r l) == BitVec.ofNat 32 k.val) = false := by simpa using h
    rw [if_neg h]; simp [IntOp.cmpi, hb]

theorem pre_apply (off : Fin S256x20.rank → Nat) (hs : S256x20.Slices off S256x1) (x1 : Vec Ideal S256x20 .f32) (x3 x4 : Vec Ideal S1x64 .f32)
    (l : Fin 20) (h0 : off 0 = 0) (h1 : off 1 = l.val) (r : Fin 256) (h : Fin 64) :
    pre off hs x1 x3 x4 (ix2 r h) = x1 (ix2 r l) * x3 (ix2 (0 : Fin 1) h) + x4 (ix2 (0 : Fin 1) h) := by
  unfold pre
  rw [addf_apply, mulf_apply, broadcastTo_a1_ab_apply, broadcastTo_1b_ab_apply, broadcastTo_1b_ab_apply,
    column_apply off hs x1 l h0 h1, shapeCast_self, shapeCast_self]

/-- The slab of column `l` at (r, u, d). -/
theorem slabVec_apply (off : Fin S256x20.rank → Nat) (hs : S256x20.Slices off S256x1) (x0 : Vec Ideal S256x20 .i32) (x1 : Vec Ideal S256x20 .f32)
    (x2 : Vec Ideal S128x128 .f32) (x3 x4 : Vec Ideal S1x64 .f32) (x5 : Vec Ideal S64x128 .f32)
    (l : Fin 20) (h0 : off 0 = 0) (h1 : off 1 = l.val) (r : Fin 256) (u : Fin 1) (d : Fin 128) :
    slabVec off hs x0 x1 x2 x3 x4 x5 (ix3 r u d) = slabAt x0 x1 x2 x3 x4 x5 l r d := by
  unfold slabVec slabAt
  rw [slab_cast_apply, addf_apply]
  refine congrArg₂ (· + ·) ?_ ?_
  · refine (Cert.LibMatmulSum.matmul_zero_at plain_hot none _ _ r d).trans ?_
    refine Finset.sum_congr rfl fun k _ => ?_
    rw [hot_apply off hs x0 l h0 h1]
    unfold k1_pay2
    rw [truncf_apply, shapeCast_self]
  · refine (Cert.LibMatmulSum.matmul_zero_at plain_mlp none _ _ r d).trans ?_
    refine Finset.sum_congr rfl fun h _ => ?_
    rw [truncf_apply, mulf_apply]
    show (pre off hs x1 x3 x4 (ix2 r h) * Ideal.logistic (pre off hs x1 x3 x4 (ix2 r h))) * k1_pay3 x5 (ix2 h d) = _
    rw [pre_apply off hs x1 x3 x4 l h0 h1]
    unfold k1_pay3
    rw [truncf_apply, shapeCast_self]

end Cert.KSlab

end
-- ==== Proof.KPieces.lean ====
/-
  The output block of one grid point as ONE function of the six blocks the body loads.

  The body writes the 256 x 20 x 128 block by twenty stores, one 256 x 1 x 128 slab per column l. Each slab is the
  same function of the loads, read at its own column (`Cert.KSlab.slabVec` with the column's offset), and the slab of
  column l sits at offset (0, l, 0) of the block: slab index (r, 0, d) is block index (r, l, d). The twenty slabs
  tile the block, so the block after the body is, at (r, l, d), the entry (r, d) of column l's slab.
-/
import proofs.«179271_g70540542870206_cont_9to1c4b_451_4_alg».proof.Proof.Gen.KernelIdeal.Frame
import proofs.«179271_g70540542870206_cont_9to1c4b_451_4_alg».proof.Proof.KSlab

set_option maxRecDepth 16384

noncomputable section

open scoped BigOperators

namespace Cert.KPieces

open Idealize.ShloMosaic Idealize.ShloMosaic.ValueIdx Cert.KernelIdeal Cert.KernelIdeal.Gen Cert.KSlab

/-- The block as one function: at (r, l, d) the entry (r, d) of column l. -/
def blockFn (x0 : Vec Ideal S256x20 .i32) (x1 : Vec Ideal S256x20 .f32) (x2 : Vec Ideal S128x128 .f32) (x3 x4 : Vec Ideal S1x64 .f32)
    (x5 : Vec Ideal S64x128 .f32) : Vec Ideal S256x20x128 .f32 :=
  fun y => slabAt x0 x1 x2 x3 x4 x5 (y 1) (y 0) (y 2)

theorem blockFn_ix3 (x0 : Vec Ideal S256x20 .i32) (x1 : Vec Ideal S256x20 .f32) (x2 : Vec Ideal S128x128 .f32) (x3 x4 : Vec Ideal S1x64 .f32)
    (x5 : Vec Ideal S64x128 .f32) (r : Fin 256) (l : Fin 20) (d : Fin 128) :
    blockFn x0 x1 x2 x3 x4 x5 (ix3 r l d) = slabAt x0 x1 x2 x3 x4 x5 l r d := rfl

/-- A slab's index (r, u, d), placed in the block by the store's rectangle at offset (0, l, 0), is (r, l, d). -/
theorem emb_col (off : Fin S256x20x128.rank → Nat) (inb : ∀ a, off a + S256x1x128.size a ≤ S256x20x128.size a) (l : Fin 20)
    (h0 : off 0 = 0) (h1 : off 1 = l.val) (h2 : off 2 = 0) (r : Fin 256) (u : Fin 1) (d : Fin 128) :
    (Rect.unit (s := S256x20x128) off S256x1x128.size inb).emb (ix3 r u d) = ix3 r l d := by
  have hu : u.val = 0 := by omega
  funext a
  refine Fin.ext ?_
  rw [Rect.emb_apply]
  match a with
  | ⟨0, _⟩ => show off 0 + 1 * r.val = r.val; rw [h0]; omega
  | ⟨1, _⟩ => show off 1 + 1 * u.val = l.val; rw [h1, hu]; omega
  | ⟨2, _⟩ => show off 2 + 1 * d.val = d.val; rw [h2]; omega

/-- One store: the slab of column l, through its rectangle, is the block function there. -/
theorem piece (soff : Fin S256x20.rank → Nat) (hs : S256x20.Slices soff S256x1)
    (off : Fin S256x20x128.rank → Nat) (inb : ∀ a, off a + S256x1x128.size a ≤ S256x20x128.size a) (l : Fin 20)
    (s0 : soff 0 = 0) (s1 : soff 1 = l.val) (h0 : off 0 = 0) (h1 : off 1 = l.val) (h2 : off 2 = 0)
    (x0 : Vec Ideal S256x20 .i32) (x1 : Vec Ideal S256x20 .f32) (x2 : Vec Ideal S128x128 .f32) (x3 x4 : Vec Ideal S1x64 .f32)
    (x5 : Vec Ideal S64x128 .f32) (x : (Rect.unit (s := S256x20x128) off S256x1x128.size inb).shape.Idx) :
    slabVec soff hs x0 x1 x2 x3 x4 x5 x = blockFn x0 x1 x2 x3 x4 x5 ((Rect.unit (s := S256x20x128) off S256x1x128.size inb).emb x) := by
  obtain ⟨r, u, d, rfl⟩ : ∃ (r : Fin 256) (u : Fin 1) (d : Fin 128), x = ix3 r u d := ⟨x 0, x 1, x 2, eq_ix3 x⟩
  rw [emb_col off inb l h0 h1 h2, blockFn_ix3]
  exact slabVec_apply soff hs x0 x1 x2 x3 x4 x5 l s0 s1 r u d

/-- What the body leaves in the output block: the block function of the six loaded blocks. -/
theorem out1_6_eq (x0 : Vec Ideal S256x20 .i32) (x1 : Vec Ideal S256x20 .f32) (x2 : Vec Ideal S128x128 .f32) (x3 x4 : Vec Ideal S1x64 .f32)
    (x5 : Vec Ideal S64x128 .f32) :
    out1_6 (F := Ideal) x0 x1 x2 x3 x4 x5
      = blockFn (View.ld x0 r1_0) (View.ld x1 r1_0) (View.ld x2 r1_1) (View.ld x3 r1_3) (View.ld x4 r1_3) (View.ld x5 r1_2) := by
  funext y
  unfold out1_6
  refine View.canon_apply_of_pieces
    (blockFn (View.ld x0 r1_0) (View.ld x1 r1_0) (View.ld x2 r1_1) (View.ld x3 r1_3) (View.ld x4 r1_3) (View.ld x5 r1_2)) _ ?_ y
    (cover1_6 _ _ _ _ _ _ _ _ _ _ _ _ _ _ _ _ _ _ _ _ y)
  intro p hp x
  simp only [List.mem_cons, List.not_mem_nil, or_false] at hp
  rcases hp with rfl | rfl | rfl | rfl | rfl | rfl | rfl | rfl | rfl | rfl | rfl | rfl | rfl | rfl | rfl | rfl | rfl | rfl | rfl | rfl
  · exact piece ![0, 19] slices_S256x20_o0_19_S256x1 ![0, 19, 0] inb_S256x20x128_S256x1x128_0_19_0 19 rfl rfl rfl rfl rfl _ _ _ _ _ _ x
  · exact piece ![0, 18] slices_S256x20_o0_18_S256x1 ![0, 18, 0] inb_S256x20x128_S256x1x128_0_18_0 18 rfl rfl rfl rfl rfl _ _ _ _ _ _ x
  · exact piece ![0, 17] slices_S256x20_o0_17_S256x1 ![0, 17, 0] inb_S256x20x128_S256x1x128_0_17_0 17 rfl rfl rfl rfl rfl _ _ _ _ _ _ x
  · exact piece ![0, 16] slices_S256x20_o0_16_S256x1 ![0, 16, 0] inb_S256x20x128_S256x1x128_0_16_0 16 rfl rfl rfl rfl rfl _ _ _ _ _ _ x
  · exact piece ![0, 15] slices_S256x20_o0_15_S256x1 ![0, 15, 0] inb_S256x20x128_S256x1x128_0_15_0 15 rfl rfl rfl rfl rfl _ _ _ _ _ _ x
  · exact piece ![0, 14] slices_S256x20_o0_14_S256x1 ![0, 14, 0] inb_S256x20x128_S256x1x128_0_14_0 14 rfl rfl rfl rfl rfl _ _ _ _ _ _ x
  · exact piece ![0, 13] slices_S256x20_o0_13_S256x1 ![0, 13, 0] inb_S256x20x128_S256x1x128_0_13_0 13 rfl rfl rfl rfl rfl _ _ _ _ _ _ x
  · exact piece ![0, 12] slices_S256x20_o0_12_S256x1 ![0, 12, 0] inb_S256x20x128_S256x1x128_0_12_0 12 rfl rfl rfl rfl rfl _ _ _ _ _ _ x
  · exact piece ![0, 11] slices_S256x20_o0_11_S256x1 ![0, 11, 0] inb_S256x20x128_S256x1x128_0_11_0 11 rfl rfl rfl rfl rfl _ _ _ _ _ _ x
  · exact piece ![0, 10] slices_S256x20_o0_10_S256x1 ![0, 10, 0] inb_S256x20x128_S256x1x128_0_10_0 10 rfl rfl rfl rfl rfl _ _ _ _ _ _ x
  · exact piece ![0, 9] slices_S256x20_o0_9_S256x1 ![0, 9, 0] inb_S256x20x128_S256x1x128_0_9_0 9 rfl rfl rfl rfl rfl _ _ _ _ _ _ x
  · exact piece ![0, 8] slices_S256x20_o0_8_S256x1 ![0, 8, 0] inb_S256x20x128_S256x1x128_0_8_0 8 rfl rfl rfl rfl rfl _ _ _ _ _ _ x
  · exact piece ![0, 7] slices_S256x20_o0_7_S256x1 ![0, 7, 0] inb_S256x20x128_S256x1x128_0_7_0 7 rfl rfl rfl rfl rfl _ _ _ _ _ _ x
  · exact piece ![0, 6] slices_S256x20_o0_6_S256x1 ![0, 6, 0] inb_S256x20x128_S256x1x128_0_6_0 6 rfl rfl rfl rfl rfl _ _ _ _ _ _ x
  · exact piece ![0, 5] slices_S256x20_o0_5_S256x1 ![0, 5, 0] inb_S256x20x128_S256x1x128_0_5_0 5 rfl rfl rfl rfl rfl _ _ _ _ _ _ x
  · exact piece ![0, 4] slices_S256x20_o0_4_S256x1 ![0, 4, 0] inb_S256x20x128_S256x1x128_0_4_0 4 rfl rfl rfl rfl rfl _ _ _ _ _ _ x
  · exact piece ![0, 3] slices_S256x20_o0_3_S256x1 ![0, 3, 0] inb_S256x20x128_S256x1x128_0_3_0 3 rfl rfl rfl rfl rfl _ _ _ _ _ _ x
  · exact piece ![0, 2] slices_S256x20_o0_2_S256x1 ![0, 2, 0] inb_S256x20x128_S256x1x128_0_2_0 2 rfl rfl rfl rfl rfl _ _ _ _ _ _ x
  · exact piece ![0, 1] slices_S256x20_o0_1_S256x1 ![0, 1, 0] inb_S256x20x128_S256x1x128_0_1_0 1 rfl rfl rfl rfl rfl _ _ _ _ _ _ x
  · exact piece ![0, 0] slices_S256x20_o0_0_S256x1 ![0, 0, 0] inb_S256x20x128_S256x1x128_0_0_0 0 rfl rfl rfl rfl rfl _ _ _ _ _ _ x

end Cert.KPieces

end
-- ==== Proof.KBlocks1.lean ====
/-
  The second region, from blocks to the array. The region runs over 64 grid points. Point t reads rows
  256 t … 256 t + 255 of the element numbers and of the fractions (each 16384 x 20), reads the 128 x 128 table,
  the two 1 x 64 hidden-layer rows and the 64 x 128 second-layer matrix whole, and writes rows
  256 t … 256 t + 255 of the 16384 x 20 x 128 result. What a point writes is, entry (r, l, d) of its block,

      sum over lanes k of [idx(256 t + r, l) = k] * table(k, d)
        + sum over hidden units h of (z h * logistic (z h)) * w2t(h, d),   z h = frac(256 t + r, l) * w1(0, h) + b1(0, h),

  which is the same expression at every point, read at the row 256 t + r of the whole arrays. Since the 64 blocks
  tile the result array (row b lies in the block of point b / 256), the array ends holding that expression at
  every index.
-/
import proofs.«179271_g70540542870206_cont_9to1c4b_451_4_alg».proof.Proof.Gen.KernelIdeal.Frame
import proofs.«179271_g70540542870206_cont_9to1c4b_451_4_alg».proof.Proof.KPieces
import Idealize.ShloMosaic.Lib.Pipeline.Value
import Idealize.ShloMosaic.Lib.ValueIdx

set_option maxRecDepth 16384

noncomputable section

open scoped BigOperators

namespace Cert.KBlocks1

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- Entry (b, l, d) of the result as a function of the six arrays the region reads: the table row selected by
    the element number of (b, l), plus the second layer applied to z * logistic z of the hidden units' affine map
    of the fraction of (b, l). -/
def wholeAt (idx : Vec Ideal S16384x20 .i32) (frac : Vec Ideal S16384x20 .f32) (tab : Vec Ideal S128x128 .f32)
    (w1r b1r : Vec Ideal S1x64 .f32) (w2t : Vec Ideal S64x128 .f32) (b : Fin 16384) (l : Fin 20) (d : Fin 128) : EReal :=
  (∑ k : Fin 128, (if idx (ix2 b l) = BitVec.ofNat 32 k.val then (1 : EReal) else 0) * tab (ix2 k d))
  + ∑ h : Fin 64, ((frac (ix2 b l) * w1r (ix2 (0 : Fin 1) h) + b1r (ix2 (0 : Fin 1) h))
      * Ideal.logistic (frac (ix2 b l) * w1r (ix2 (0 : Fin 1) h) + b1r (ix2 (0 : Fin 1) h))) * w2t (ix2 h d)

/-- The whole result array as one function of the six arrays the region reads. -/
def whole (idx : Vec Ideal S16384x20 .i32) (frac : Vec Ideal S16384x20 .f32) (tab : Vec Ideal S128x128 .f32)
    (w1r b1r : Vec Ideal S1x64 .f32) (w2t : Vec Ideal S64x128 .f32) : Vec Ideal S16384x20x128 .f32 :=
  fun i => wholeAt idx frac tab w1r b1r w2t (i 0) (i 1) (i 2)

/-- The zero offsets of a whole-block read. -/
theorem zero2 : (![0, 0] : Fin 2 → Nat) = fun _ => 0 := funext fun a => by fin_cases a <;> rfl

/-- The index maps over the 64 grid points: the element numbers, the fractions and the output move by one
    256-row block per point; the table, the two hidden-layer rows and the second-layer matrix stay whole. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 3) = t.val ∧ win1_6.index t (1 : Fin 3) = 0 ∧ win1_6.index t (2 : Fin 3) = 0 :=
  (by decide +kernel : ∀ t : Fin grid1.N, _)

/-- A block computed from the rows `n * 256 + r` of the element numbers and fractions and from the whole
    table, rows and matrix is, entry by entry, the whole-array function at those rows. -/
theorem block_eq_whole (idx : Vec Ideal S16384x20 .i32) (frac : Vec Ideal S16384x20 .f32) (tab : Vec Ideal S128x128 .f32)
    (w1r b1r : Vec Ideal S1x64 .f32) (w2t : Vec Ideal S64x128 .f32)
    (x0 : Vec Ideal S256x20 .i32) (x1 : Vec Ideal S256x20 .f32) (x2 : Vec Ideal S128x128 .f32)
    (x3 x4 : Vec Ideal S1x64 .f32) (x5 : Vec Ideal S64x128 .f32) (n : Nat)
    (h0 : ∀ (r : Fin 256) (l : Fin 20) (b : Fin 16384), b.val = n * 256 + r.val → x0 (ix2 r l) = idx (ix2 b l))
    (h1 : ∀ (r : Fin 256) (l : Fin 20) (b : Fin 16384), b.val = n * 256 + r.val → x1 (ix2 r l) = frac (ix2 b l))
    (h2 : x2 = tab) (h3 : x3 = w1r) (h4 : x4 = b1r) (h5 : x5 = w2t)
    (r : Fin 256) (l : Fin 20) (d : Fin 128) (b : Fin 16384) (hb : b.val = n * 256 + r.val) :
    Cert.KPieces.blockFn x0 x1 x2 x3 x4 x5 (ix3 r l d) = wholeAt idx frac tab w1r b1r w2t b l d := by
  subst h2 h3 h4 h5
  rw [Cert.KPieces.blockFn_ix3]
  unfold Cert.KSlab.slabAt wholeAt
  rw [h0 r l b hb, h1 r l b hb]

/-- What point `t` writes back is block `t` of the whole-array function of the region's entry contents. -/
theorem flushed_eq (c : Dev nD) (t : Fin cfg1.N) :
    (dat1 (F := Ideal) V c).flushed 6 t = ((cfg1.win 6).blk t).view.read (Elt Ideal)
      (whole (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))) := by
  show (cfg1.win 6).cut (grid1.coords t) ((dat1 V c).after 6 t) = _
  rw [after1_6, Cert.KPieces.out1_6_eq]
  simp only [View.ld_unit_zero (S := S256x20) zero2, View.ld_unit_zero (S := S128x128) zero2,
    View.ld_unit_zero (S := S1x64) zero2, View.ld_unit_zero (S := S64x128) zero2]
  obtain ⟨e00, e01, e10, e11, e20, e21, e30, e31, e40, e41, e50, e51, e60, e61, e62⟩ := idx_facts t
  have ht : t.val < 64 := t.isLt
  funext j
  obtain ⟨r, l, d, rfl⟩ : ∃ (r : Fin 256) (l : Fin 20) (d : Fin 128), j = ix3 r l d := ⟨j 0, j 1, j 2, eq_ix3 j⟩
  have hrow : t.val * 256 + r.val < 16384 := by have := r.isLt; omega
  have he : ((cfg1.win 6).blk t).view.emb (ix3 r l d) = ix3 (⟨t.val * 256 + r.val, hrow⟩ : Fin 16384) l d := by
    funext a; apply Fin.ext
    match a with
    | ⟨0, _⟩ => show win1_6.index t (0 : Fin 3) * 256 + 1 * r.val = t.val * 256 + r.val; rw [e60]; omega
    | ⟨1, _⟩ => show win1_6.index t (1 : Fin 3) * 20 + 1 * l.val = l.val; rw [e61]; omega
    | ⟨2, _⟩ => show win1_6.index t (2 : Fin 3) * 128 + 1 * d.val = d.val; rw [e62]; omega
  show Cert.KPieces.blockFn (iblk1 V c 0 t) (iblk1 V c 1 t) (iblk1 V c 2 t) (iblk1 V c 3 t) (iblk1 V c 4 t) (iblk1 V c 5 t) (ix3 r l d)
    = whole (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))
        (((cfg1.win 6).blk t).view.emb (ix3 r l d))
  rw [he]
  refine block_eq_whole _ _ _ _ _ _ _ _ _ _ _ _ t.val ?_ ?_ ?_ ?_ ?_ ?_ r l d _ rfl
  · intro r' l' b hb
    show V c (Pipeline.arrRef spec1 0) (((cfg1.win 0).blk t).view.emb (ix2 r' l')) = V c (Pipeline.arrRef spec1 0) (ix2 b l')
    congr 1; funext a; apply Fin.ext
    match a with
    | ⟨0, _⟩ => show win1_0.index t (0 : Fin 2) * 256 + 1 * r'.val = b.val; rw [e00, hb]; omega
    | ⟨1, _⟩ => show win1_0.index t (1 : Fin 2) * 20 + 1 * l'.val = l'.val; rw [e01]; omega
  · intro r' l' b hb
    show V c (Pipeline.arrRef spec1 1) (((cfg1.win 1).blk t).view.emb (ix2 r' l')) = V c (Pipeline.arrRef spec1 1) (ix2 b l')
    congr 1; funext a; apply Fin.ext
    match a with
    | ⟨0, _⟩ => show win1_1.index t (0 : Fin 2) * 256 + 1 * r'.val = b.val; rw [e10, hb]; omega
    | ⟨1, _⟩ => show win1_1.index t (1 : Fin 2) * 20 + 1 * l'.val = l'.val; rw [e11]; omega
  · funext y
    show V c (Pipeline.arrRef spec1 2) (((cfg1.win 2).blk t).view.emb y) = V c (Pipeline.arrRef spec1 2) y
    congr 1; funext a; apply Fin.ext
    match a with
    | ⟨0, _⟩ => show win1_2.index t (0 : Fin 2) * 128 + 1 * (y 0).val = (y 0).val; rw [e20]; omega
    | ⟨1, _⟩ => show win1_2.index t (1 : Fin 2) * 128 + 1 * (y 1).val = (y 1).val; rw [e21]; omega
  · funext y
    show V c (Pipeline.arrRef spec1 3) (((cfg1.win 3).blk t).view.emb y) = V c (Pipeline.arrRef spec1 3) y
    congr 1; funext a; apply Fin.ext
    match a with
    | ⟨0, _⟩ => show win1_3.index t (0 : Fin 2) * 1 + 1 * (y 0).val = (y 0).val; rw [e30]; omega
    | ⟨1, _⟩ => show win1_3.index t (1 : Fin 2) * 64 + 1 * (y 1).val = (y 1).val; rw [e31]; omega
  · funext y
    show V c (Pipeline.arrRef spec1 4) (((cfg1.win 4).blk t).view.emb y) = V c (Pipeline.arrRef spec1 4) y
    congr 1; funext a; apply Fin.ext
    match a with
    | ⟨0, _⟩ => show win1_4.index t (0 : Fin 2) * 1 + 1 * (y 0).val = (y 0).val; rw [e40]; omega
    | ⟨1, _⟩ => show win1_4.index t (1 : Fin 2) * 64 + 1 * (y 1).val = (y 1).val; rw [e41]; omega
  · funext y
    show V c (Pipeline.arrRef spec1 5) (((cfg1.win 5).blk t).view.emb y) = V c (Pipeline.arrRef spec1 5) y
    congr 1; funext a; apply Fin.ext
    match a with
    | ⟨0, _⟩ => show win1_5.index t (0 : Fin 2) * 64 + 1 * (y 0).val = (y 0).val; rw [e50]; omega
    | ⟨1, _⟩ => show win1_5.index t (1 : Fin 2) * 128 + 1 * (y 1).val = (y 1).val; rw [e51]; omega

/-- An index of the result array is in point `t`'s block iff each coordinate is in the block's range on its axis. -/
theorem mem_blk (t : Fin cfg1.N) (i : S16384x20x128.Idx) :
    i ∈ ((cfg1.win 6).blk t).view.set ↔ ∀ a : Fin 3, win1_6.index t a * S256x20x128.size a ≤ (i a).val
      ∧ (i a).val < win1_6.index t a * S256x20x128.size a + S256x20x128.size a := by
  show i ∈ ((View.whole main_v9).slice (win1_6.rect t)).set ↔ _
  rw [View.set_slice_whole, Rect.mem_set_unit]
  exact Iff.rfl

/-- Every index of the result array is in the block of the point that holds its row: point `b / 256` for row `b`. -/
theorem cover (i : S16384x20x128.Idx) :
    ∃ t : Fin cfg1.N, (cfg1.win 6).flush t = true ∧ i ∈ ((cfg1.win 6).blk t).view.set := by
  have h0 : (i 0).val < 16384 := (i 0).isLt
  have h1 : (i 1).val < 20 := (i 1).isLt
  have h2 : (i 2).val < 128 := (i 2).isLt
  have hq : (i 0).val / 256 < 64 := by omega
  obtain ⟨t, ht⟩ : ∃ t : Fin cfg1.N, t.val = (i 0).val / 256 := ⟨⟨(i 0).val / 256, hq⟩, rfl⟩
  refine ⟨t, flush1_6 t, ?_⟩
  obtain ⟨-, -, -, -, -, -, -, -, -, -, -, -, e60, e61, e62⟩ := idx_facts t
  rw [mem_blk]
  intro a
  match a with
  | ⟨0, _⟩ =>
    show win1_6.index t (0 : Fin 3) * 256 ≤ (i 0).val ∧ (i 0).val < win1_6.index t (0 : Fin 3) * 256 + 256
    rw [e60, ht]; omega
  | ⟨1, _⟩ =>
    show win1_6.index t (1 : Fin 3) * 20 ≤ (i 1).val ∧ (i 1).val < win1_6.index t (1 : Fin 3) * 20 + 20
    rw [e61]; omega
  | ⟨2, _⟩ =>
    show win1_6.index t (2 : Fin 3) * 128 ≤ (i 2).val ∧ (i 2).val < win1_6.index t (2 : Fin 3) * 128 + 128
    rw [e62]; omega

/-- The result array after the second region's last point: the whole-array function of the six arrays the region
    reads, as the region finds them. -/
theorem final (c : Dev nD) : (dat1 (F := Ideal) V c).arrAt 6 cfg1.N
    = whole (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5)) :=
  (dat1 V c).arrAt_eq_of_cover 6 _ (fun t _ => flushed_eq V c t) cover

end Cert.KBlocks1

end
-- ==== Proof.KEntry1.lean ====
/-
  What the second region finds in its buffers when it starts.

  Between the two regions the program reshapes the first layer's weights from 64 x 1 to 1 x 64 and its bias from 64 to
  1 x 64, and transposes the second layer's weights from 128 x 64 to 64 x 128. No operation of the program before the
  second region writes an argument buffer, and the first region's arrays are none of the row numbers, the fractions or
  the two layers' arguments; so at the second region's entry the row numbers and fractions are the launch memory's, the
  first region's result array is what that region left, and the three new arrays, read entry by entry, are the launch
  memory's weights and bias at the matching entry: (0, h) of the reshaped weights is (h, 0) of the weights, (0, h) of
  the reshaped bias is h of the bias, (h, d) of the transposed weights is (d, h) of the weights.
-/
import proofs.«179271_g70540542870206_cont_9to1c4b_451_4_alg».proof.Proof.Gen.KernelIdeal.Frame
import Idealize.ShloMosaic.Lib.ValueLayout

noncomputable section

namespace Cert.KEntry1

open Cert.KernelIdeal Cert.KernelIdeal.Gen Idealize.ShloMosaic Idealize.ShloMosaic.ValueIdx Idealize.ShloMosaic.TcCoe Idealize.SL.Sem

/-- An `[a, 1]` array cast to `[1, a]` reads, at `(u, i)`, the operand at `(i, v)`, whatever the unit coordinates. -/
theorem shapeCast_a1_1a_apply {α : Type} {a : ℕ} (x : (⟨2, ![a, 1]⟩ : Shape).Idx → α)
    (h : (⟨2, ![a, 1]⟩ : Shape).ShapeCasts ⟨2, ![1, a]⟩) (u v : Fin 1) (i : Fin a) :
    shapeCast ⟨2, ![1, a]⟩ x h (ix2 u i) = x (ix2 i v) :=
  shapeCast_apply x h _ _ (by
    have hu : u.val = 0 := by omega
    have hv : v.val = 0 := by omega
    rw [Shape.rowMajor_val_two, Shape.rowMajor_val_two]
    show i.val * 1 + v.val = u.val * a + i.val
    rw [hu, hv, Nat.zero_mul, Nat.zero_add, Nat.mul_one, Nat.add_zero])

section Entry

variable (m : (ℓ : Loc nD τ sig) → Buf (Elt Ideal) ℓ) (ρ : Dev nD → PrngReg) (c : Dev nD)

/-! ## The arguments at the first region's exit -/

/-- Argument 0 at the first region's exit is the launch memory's: no operation before it and no array of the region is that buffer. -/
theorem W2_arg0 : W2 m ρ c (Proc.devRef .tc main_arg0) = m ((c.tc : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes,
            StableHlo.ternary_writes, StableHlo.reshape_writes, Finset.mem_singleton]
          repeat' apply And.intro
          all_goals exact StableHlo.devRef_ne_of_ne (by decide)))
    _ = m ((c.tc : Thread nD τ).loc main_arg0) := rfl

/-- Argument 1 at the first region's exit is the launch memory's: no operation before it and no array of the region is that buffer. -/
theorem W2_arg1 : W2 m ρ c (Proc.devRef .tc main_arg1) = m ((c.tc : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes,
            StableHlo.ternary_writes, StableHlo.reshape_writes, Finset.mem_singleton]
          repeat' apply And.intro
          all_goals exact StableHlo.devRef_ne_of_ne (by decide)))
    _ = m ((c.tc : Thread nD τ).loc main_arg1) := rfl

/-- Argument 5 at the first region's exit is the launch memory's: no operation before it and no array of the region is that buffer. -/
theorem W2_arg5 : W2 m ρ c (Proc.devRef .tc main_arg5) = m ((c.tc : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes,
            StableHlo.ternary_writes, StableHlo.reshape_writes, Finset.mem_singleton]
          repeat' apply And.intro
          all_goals exact StableHlo.devRef_ne_of_ne (by decide)))
    _ = m ((c.tc : Thread nD τ).loc main_arg5) := rfl

/-- Argument 6 at the first region's exit is the launch memory's: no operation before it and no array of the region is that buffer. -/
theorem W2_arg6 : W2 m ρ c (Proc.devRef .tc main_arg6) = m ((c.tc : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes,
            StableHlo.ternary_writes, StableHlo.reshape_writes, Finset.mem_singleton]
          repeat' apply And.intro
          all_goals exact StableHlo.devRef_ne_of_ne (by decide)))
    _ = m ((c.tc : Thread nD τ).loc main_arg6) := rfl

/-- Argument 7 at the first region's exit is the launch memory's: no operation before it and no array of the region is that buffer. -/
theorem W2_arg7 : W2 m ρ c (Proc.devRef .tc main_arg7) = m ((c.tc : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.Forall, StableHlo.nullary_writes, StableHlo.unary_writes, StableHlo.binary_writes,
            StableHlo.ternary_writes, StableHlo.reshape_writes, Finset.mem_singleton]
          repeat' apply And.intro
          all_goals exact StableHlo.devRef_ne_of_ne (by decide)))
    _ = m ((c.tc : Thread nD τ).loc main_arg7) := rfl

/-! ## The second region's entry -/

/-- The row numbers are the launch memory's. -/
theorem entry_idx : V3 m ρ c main_arg0 = m ((c.tc : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes,
            StableHlo.ternary_writes, StableHlo.reshape_writes, Finset.mem_singleton]
          repeat' apply And.intro
          all_goals exact StableHlo.devRef_ne_of_ne (by decide)))
    _ = m ((c.tc : Thread nD τ).loc main_arg0) := W2_arg0 m ρ c

/-- The fractions are the launch memory's. -/
theorem entry_frac : V3 m ρ c main_arg1 = m ((c.tc : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes,
            StableHlo.ternary_writes, StableHlo.reshape_writes, Finset.mem_singleton]
          repeat' apply And.intro
          all_goals exact StableHlo.devRef_ne_of_ne (by decide)))
    _ = m ((c.tc : Thread nD τ).loc main_arg1) := W2_arg1 m ρ c

/-- The first region's result array is what that region left. -/
theorem entry_tab : V3 m ρ c main_v5 = (dat0 (F := Ideal) (V1 m ρ) c).arrAt 3 cfg0.N :=
  calc W3 m ρ c (Proc.devRef .tc main_v5)
    _ = W2 m ρ c (Proc.devRef .tc main_v5) := StableHlo.after_of_forall_not_mem (b := Proc.devRef .tc main_v5) _ _ (List.forall_iff_forall_mem.mp (by
          simp only [hostOps1, List.Forall, StableHlo.nullary_writes, StableHlo.unary_writes, StableHlo.binary_writes,
            StableHlo.ternary_writes, StableHlo.reshape_writes, Finset.mem_singleton]
          repeat' apply And.intro
          all_goals exact StableHlo.devRef_ne_of_ne (by decide)))
    _ = (dat0 (F := Ideal) (V1 m ρ) c).arrAt 3 cfg0.N := W2_arr m ρ c 3

/-- The reshaped first-layer weights at `(0, h)`: the weights at `(h, 0)`. -/
theorem entry_w1 (h : Fin 64) :
    (V3 m ρ c main_v6) (ix2 (0 : Fin 1) h) = (m ((c.tc : Thread nD τ).loc main_arg5)) (ix2 h (0 : Fin 1)) := by
  have e : (V3 m ρ c main_v6 : S1x64.Idx → EReal)
      = shapeCast S1x64 (W2 m ρ c (Proc.devRef .tc main_arg5)) shapeCasts_S64x1_S1x64 := by
    show StableHlo.after hostOps1 (W2 m ρ c) (Proc.devRef .tc main_v6) = _
    after_results
    rfl
  rw [e, W2_arg5 m ρ c]
  exact shapeCast_a1_1a_apply _ _ 0 0 h

/-- The reshaped first-layer bias at `(0, h)`: the bias at `h`. -/
theorem entry_b1 (h : Fin 64) :
    (V3 m ρ c main_v7) (ix2 (0 : Fin 1) h) = (m ((c.tc : Thread nD τ).loc main_arg6)) (ix1 h) := by
  have e : (V3 m ρ c main_v7 : S1x64.Idx → EReal)
      = shapeCast S1x64 (W2 m ρ c (Proc.devRef .tc main_arg6)) shapeCasts_S64_S1x64 := by
    show StableHlo.after hostOps1 (W2 m ρ c) (Proc.devRef .tc main_v7) = _
    after_results
    rfl
  rw [e, W2_arg6 m ρ c]
  exact shapeCast_a_1a_apply _ _ 0 h

/-- The transposed second-layer weights at `(h, d)`: the weights at `(d, h)`. -/
theorem entry_w2t (h : Fin 64) (d : Fin 128) :
    (V3 m ρ c main_v8) (ix2 h d) = (m ((c.tc : Thread nD τ).loc main_arg7)) (ix2 d h) := by
  have e : (V3 m ρ c main_v8 : S64x128.Idx → EReal)
      = transpose S64x128 [1, 0] (W2 m ρ c (Proc.devRef .tc main_arg7)) transposes_S128x64_S64x128_1_0 := by
    show StableHlo.after hostOps1 (W2 m ρ c) (Proc.devRef .tc main_v8) = _
    after_results
  rw [e, W2_arg7 m ρ c]
  exact transpose_ix2_apply _ _ h d

end Entry

end Cert.KEntry1

end
-- ==== Proof.LibMatmulSumT.lean ====
/-
  A matrix product with the RIGHT operand contracted on its axis 1,  [n, K] x [w, K] -> [n, w]  (the left matrix against
  the transpose of the right one), at the ideal values, for any contraction length K and whichever record of dimension
  numbers spells it: the sum over the record's own contraction index, read at entry (p, q), is the sum over k < K of
  left(p, k) * right(q, k).  A kernel's matrix-unit product into a zero accumulator is that sum.
  The record enters only through six facts about its index maps (one contracted axis of extent K; both operands
  contracted on their axis 1; the result's axes the left's axis 0 and the right's axis 0).
-/
import Idealize.ShloMosaic.PureOps.Ideal.Laws
import Idealize.ShloMosaic.Lib.Pipeline.Value
import Idealize.ShloMosaic.Lib.ValueIdx

noncomputable section

namespace Cert.LibMatmulSumT

open Idealize.ShloMosaic Idealize.ShloMosaic.ValueIdx

/-- The index facts of a product against a transposed right operand, with contraction length `K`. -/
structure PlainT {n K w : ℕ} (d : DotDims ⟨2, ![n, K]⟩ ⟨2, ![w, K]⟩ ⟨2, ![n, w]⟩) : Prop where
  rank : d.contr.rank = 1
  size : d.contr.size ⟨0, by rw [rank]; exact Nat.one_pos⟩ = K
  l0 : ∀ (i : (⟨2, ![n, w]⟩ : Shape).Idx) (q : d.contr.Idx), (d.lhsIdx i q 0).val = (i 0).val
  l1 : ∀ (i : (⟨2, ![n, w]⟩ : Shape).Idx) (q : d.contr.Idx), (d.lhsIdx i q 1).val = (q ⟨0, by rw [rank]; exact Nat.one_pos⟩).val
  r0 : ∀ (i : (⟨2, ![n, w]⟩ : Shape).Idx) (q : d.contr.Idx), (d.rhsIdx i q 0).val = (i 1).val
  r1 : ∀ (i : (⟨2, ![n, w]⟩ : Shape).Idx) (q : d.contr.Idx), (d.rhsIdx i q 1).val = (q ⟨0, by rw [rank]; exact Nat.one_pos⟩).val

/-- The contraction sum at entry (p, q), re-indexed by k < K. -/
theorem sum_eq_T {n K w : ℕ} {d : DotDims ⟨2, ![n, K]⟩ ⟨2, ![w, K]⟩ ⟨2, ![n, w]⟩} (hd : PlainT d)
    (l : (⟨2, ![n, K]⟩ : Shape).Idx → EReal) (r : (⟨2, ![w, K]⟩ : Shape).Idx → EReal) (p : Fin n) (q : Fin w) :
    (∑ k : d.contr.Idx, l (d.lhsIdx (ix2 p q) k) * r (d.rhsIdx (ix2 p q) k)) = ∑ k : Fin K, l (ix2 p k) * r (ix2 q k) := by
  rw [← Equiv.sum_comp (contrEquiv1 d K hd.rank hd.size).symm]
  refine Finset.sum_congr rfl fun k _ => ?_
  have hk := contrEquiv1_symm_val d K hd.rank hd.size k
  have el : d.lhsIdx (ix2 p q) ((contrEquiv1 d K hd.rank hd.size).symm k) = ix2 p k := funext fun a => Fin.ext (by
    match a with
    | ⟨0, _⟩ => exact hd.l0 _ _
    | ⟨1, _⟩ => exact (hd.l1 _ _).trans hk)
  have er : d.rhsIdx (ix2 p q) ((contrEquiv1 d K hd.rank hd.size).symm k) = ix2 q k := funext fun a => Fin.ext (by
    match a with
    | ⟨0, _⟩ => exact hd.r0 _ _
    | ⟨1, _⟩ => exact (hd.r1 _ _).trans hk)
  rw [el, er]

/-- A matrix-unit product into the zero accumulator, at entry (p, q). -/
theorem matmul_zero_at_T {n K w : ℕ} {d : DotDims ⟨2, ![n, K]⟩ ⟨2, ![w, K]⟩ ⟨2, ![n, w]⟩} (hd : PlainT d) {φ₁ φ₂ : FTy}
    (prec : Option ContractPrecision) (l : FVec Ideal ⟨2, ![n, K]⟩ φ₁) (r : FVec Ideal ⟨2, ![w, K]⟩ φ₂) (p : Fin n) (q : Fin w) :
    FloatOps.matmul d prec l r (constant ⟨2, ![n, w]⟩ .f32 0x00000000#32) (ix2 p q) = ∑ k : Fin K, l (ix2 p k) * r (ix2 q k) :=
  (Ideal.matmul_constant_zero_apply d prec l r (ix2 p q)).trans (sum_eq_T hd l r p q)

end Cert.LibMatmulSumT

end
-- ==== Proof.LibScatterSet.lean ====
/-
  A host scatter whose body returns the update ("set"), read at one index of the operand.
  The scatter is a left fold over the update indices, each step overwriting the element its update lands on.  Read at a
  fixed operand index i, the fold ends at a value a as soon as every update landing on i carries a, and either the operand
  holds a at i or some update lands on i.  In particular: where no update lands the operand's element survives, and where
  the landing updates agree the result is their common value.
-/
import Idealize.ShloMosaic.PureOps.ShapeOps
import Idealize.ShloMosaic.Lib.ValueIdx

namespace Cert.LibScatterSet

open Idealize.ShloMosaic

/-- A left fold of steps that, read at `i`, overwrite with `v n` exactly when `g n = some i`: it ends at `a` when every
    hit carries `a` and the start holds `a` at `i` or the list has a hit. -/
theorem foldl_set_apply {ι I α : Type} (step : (I → α) → ι → (I → α)) (g : ι → Option I) (v : ι → α) (i : I)
    (hhit : ∀ r n, g n = some i → step r n i = v n) (hmiss : ∀ r n, g n ≠ some i → step r n i = r i)
    (a : α) (l : List ι) (x : I → α) (hv : ∀ n ∈ l, g n = some i → v n = a)
    (hx : x i = a ∨ ∃ n ∈ l, g n = some i) : (l.foldl step x) i = a := by
  induction l generalizing x with
  | nil =>
    rcases hx with h | ⟨n, hn, _⟩
    · exact h
    · cases hn
  | cons n l ih =>
    rw [List.foldl_cons]
    refine ih (step x n) (fun n' hn' => hv n' (List.mem_cons_of_mem _ hn')) ?_
    by_cases hg : g n = some i
    · left; rw [hhit x n hg]; exact hv n List.mem_cons_self hg
    · rcases hx with h | ⟨n', hn', hg'⟩
      · left; rw [hmiss x n hg]; exact h
      · rcases List.mem_cons.1 hn' with rfl | h'
        · exact absurd hg' hg
        · right; exact ⟨n', h', hg'⟩

/-- A "set" scatter at operand index `i` is `a` when every update landing on `i` carries `a`, and the operand holds
    `a` there or some update lands there. -/
theorem scatter_set_apply {α : Type} {s si u : Shape} {w : ℕ} (d : ScatterDims s si u) (x : s.Idx → α) (idx : IVec si w)
    (upd : u.Idx → α) (i : s.Idx) (a : α) (hv : ∀ j, d.resultIdx? j idx = some i → upd j = a)
    (hx : x i = a ∨ ∃ j, d.resultIdx? j idx = some i) :
    Host.scatter d (fun _ b => b) x idx upd i = a := by
  unfold Host.scatter
  refine foldl_set_apply _ (fun n => d.resultIdx? (u.rowMajor.symm n) idx) (fun n => upd (u.rowMajor.symm n)) i ?_ ?_ a _ x
    (fun n _ => hv _) ?_
  · intro r n hg
    simp only [hg, if_true]
  · intro r n hg
    cases h : d.resultIdx? (u.rowMajor.symm n) idx with
    | none => rfl
    | some i0 =>
      have hne : i ≠ i0 := fun e => hg (by rw [h, e])
      simp only [if_neg hne]
  · rcases hx with h | ⟨j, hj⟩
    · exact Or.inl h
    · exact Or.inr ⟨u.rowMajor j, List.mem_finRange _, by rw [Equiv.symm_apply_apply]; exact hj⟩

end Cert.LibScatterSet
-- ==== Proof.KEntry0.lean ====
/-
  Region 0's entry contents at the ideal values, each read at an index: the feature table padded with zero rows
  (a host scatter of the 119 x 200 argument into zeros at row offset 0), the projection matrix as launched, and the
  two bias vectors added and read as one row.
-/
import proofs.«179271_g70540542870206_cont_9to1c4b_451_4_alg».proof.Proof.Gen.KernelIdeal.Frame
import Idealize.ShloMosaic.PureOps.Ideal.Laws
import Idealize.ShloMosaic.Lib.ValueLayout
import Idealize.ShloMosaic.Lib.Tactic
import proofs.«179271_g70540542870206_cont_9to1c4b_451_4_alg».proof.Proof.LibScatterSet

noncomputable section

open Idealize.ShloMosaic Idealize.ShloMosaic.TcCoe Idealize.ShloMosaic.Tactic Idealize.ShloMosaic.ValueIdx Idealize.SL.Sem
open Idealize.ShloMosaic.Pipeline (Dat)

namespace Cert.KTable

open Cert.KernelIdeal Cert.KernelIdeal.Gen

variable (m : (ℓ : Loc nD τ sig) → Buf (Elt Ideal) ℓ) (ρ : Dev nD → PrngReg) (c : Dev nD)

/-! # Region 0's entry contents, read at an index

The first stretch of host operations writes three of region 0's arrays: the feature table padded with zero rows to 128
rows (a scatter of the 119 x 200 argument at row offset 0 into a 128 x 200 array of zeros), the sum of the two bias
vectors as a 1 x 128 row, and it leaves the projection matrix as launched. -/

/-- The launch contents of the four arguments region 0 depends on, on core `c`, at their literal array types:
    the feature table, the projection matrix and the two bias vectors. -/
abbrev A2 : FVec Ideal S119x200 .f32 := m ((c : Thread nD τ).loc main_arg2)
abbrev A3 : FVec Ideal S128x200 .f32 := m ((c : Thread nD τ).loc main_arg3)
abbrev A4 : FVec Ideal S128 .f32 := m ((c : Thread nD τ).loc main_arg4)
abbrev A8 : FVec Ideal S128 .f32 := m ((c : Thread nD τ).loc main_arg8)

/-- Region 0's three input arrays as it finds them, at their literal array types: the padded table, the projection
    matrix, the bias row. -/
abbrev padded : FVec Ideal S128x200 .f32 := V1 m ρ c main_v2
abbrev projW : FVec Ideal S128x200 .f32 := V1 m ρ c main_arg3
abbrev biasRow : FVec Ideal S1x128 .f32 := V1 m ρ c main_v4

/-- The scatter's one start index: the constant 0. -/
abbrev idx0 : IVec S1 32 := broadcastInDim S1 ![] bcast_S_S1 (constantI S_ 32 0#32)

/-- The array scattered into: zeros. -/
abbrev zeros128x200 : FVec Ideal S128x200 .f32 :=
  broadcastInDim S128x200 ![] bcast_S_S128x200 (constant (F := Ideal) S_ .f32 0x00000000#32)

theorem zeros128x200_apply (i : S128x200.Idx) : zeros128x200 i = 0 :=
  Ideal.ofBits_zero_f32

/-- Every update's window starts at row 0, column 0. -/
theorem start_zero (j : S119x200.Idx) (a : Fin 2) : scatter_S128x200_S1_S119x200_01_n_0_0.start j idx0 a = 0 := by
  unfold ScatterDims.start
  split
  · rfl
  · rfl

/-- Both operand axes are window axes: the window coordinate on axis `a` is the update's own coordinate. -/
theorem window_val (j : S119x200.Idx) (a : Fin 2) : scatter_S128x200_S1_S119x200_01_n_0_0.window j a = (j a).val := by
  match a with
  | ⟨0, _⟩ => rfl
  | ⟨1, _⟩ => rfl

/-- Update (r, f) lands on operand entry (r, f). -/
theorem resultIdx_eq (r : Fin 119) (f : Fin 200) :
    scatter_S128x200_S1_S119x200_01_n_0_0.resultIdx? (ix2 r f) idx0 = some (ix2 ⟨r.val, by omega⟩ f) := by
  have key : ∀ a : Fin 2, scatter_S128x200_S1_S119x200_01_n_0_0.start (ix2 r f) idx0 a
      + (scatter_S128x200_S1_S119x200_01_n_0_0.window (ix2 r f) a : ℤ) = ((ix2 r f : S119x200.Idx) a).val := fun a => by
    rw [start_zero, window_val, zero_add]
  unfold ScatterDims.resultIdx?
  have hr := r.isLt
  have hf := f.isLt
  rw [dif_pos (fun a => by
    rw [key a]
    match a with
    | ⟨0, _⟩ => exact ⟨Int.natCast_nonneg _, by show ((r.val : ℕ) : ℤ) < (128 : ℕ); omega⟩
    | ⟨1, _⟩ => exact ⟨Int.natCast_nonneg _, by show ((f.val : ℕ) : ℤ) < (200 : ℕ); omega⟩)]
  refine congrArg some (funext fun a => Fin.ext ?_)
  show (scatter_S128x200_S1_S119x200_01_n_0_0.start (ix2 r f) idx0 a
      + (scatter_S128x200_S1_S119x200_01_n_0_0.window (ix2 r f) a : ℤ)).toNat = _
  rw [key a, Int.toNat_natCast]
  match a with
  | ⟨0, _⟩ => rfl
  | ⟨1, _⟩ => rfl

/-- The padded table as the operations' term. -/
theorem padded_eq : padded m ρ c
    = Host.scatter scatter_S128x200_S1_S119x200_01_n_0_0 (fun _ b => b) zeros128x200 idx0 (A2 m c) := by
  dsimp only [padded, Gen.V1, Gen.W1, Gen.hostOps0]; after_results

/-- The padded table at (v, f): the argument's row v below 119, zero from row 119 on. -/
theorem padded_at (v : Fin 128) (f : Fin 200) :
    padded m ρ c (ix2 v f) = if h : v.val < 119 then A2 m c (ix2 ⟨v.val, h⟩ f) else 0 := by
  rw [padded_eq]
  have hland : ∀ j : S119x200.Idx, scatter_S128x200_S1_S119x200_01_n_0_0.resultIdx? j idx0 = some (ix2 v f) →
      ∃ h : v.val < 119, j = ix2 ⟨v.val, h⟩ f := fun j hj => by
    obtain ⟨r, g, rfl⟩ : ∃ (r : Fin 119) (g : Fin 200), j = ix2 r g := ⟨j 0, j 1, eq_ix2 j⟩
    rw [resultIdx_eq] at hj
    have e := Option.some.inj hj
    have e0 : r.val = v.val := congrArg Fin.val (congrFun e 0)
    have e1 : g = f := congrFun e 1
    subst e1
    exact ⟨e0 ▸ r.isLt, congrArg (fun r' => ix2 r' g) (Fin.ext e0)⟩
  split
  · rename_i h
    refine Cert.LibScatterSet.scatter_set_apply _ _ _ _ _ _ (fun j hj => ?_) (Or.inr ⟨ix2 ⟨v.val, h⟩ f, resultIdx_eq ⟨v.val, h⟩ f⟩)
    obtain ⟨_, rfl⟩ := hland j hj
    rfl
  · rename_i h
    refine Cert.LibScatterSet.scatter_set_apply _ _ _ _ _ _ (fun j hj => ?_) (Or.inl (zeros128x200_apply _))
    obtain ⟨h', _⟩ := hland j hj
    exact absurd h' h

/-- A row of the padded table below 119 is the argument's row. -/
theorem padded_row (r : Fin 119) (f : Fin 200) : padded m ρ c (ix2 ⟨r.val, by omega⟩ f) = A2 m c (ix2 r f) := by
  rw [padded_at, dif_pos r.isLt]

/-- The projection matrix is as launched. -/
theorem projW_eq : projW m ρ c = A3 m c := by
  dsimp only [projW, Gen.V1, Gen.W1, Gen.hostOps0]; after_results

/-- The bias row as the operations' term: the two bias vectors added, read as one row. -/
theorem biasRow_eq : biasRow m ρ c = shapeCast S1x128 (addf (A4 m c) (A8 m c)) shapeCasts_S128_S1x128 := by
  dsimp only [biasRow, Gen.V1, Gen.W1, Gen.hostOps0]; after_results; rfl

/-- The bias row at column d. -/
theorem biasRow_at (d : Fin 128) : biasRow m ρ c (ix2 (0 : Fin 1) d) = A4 m c (ix1 d) + A8 m c (ix1 d) := by
  rw [biasRow_eq]
  refine (shapeCast_apply _ _ (ix2 (0 : Fin 1) d) (ix1 d) ?_).trans rfl
  rw [Shape.rowMajor_val_one, Shape.rowMajor_val_two]
  show d.val = 0 * 128 + d.val
  omega

end Cert.KTable
end
-- ==== Proof.KTable.lean ====
/-
  Region 0's value at the ideal values: the 128 x 128 table it leaves, entry by entry — row v of the padded feature
  table against row d of the projection matrix, plus the two biases at d — and, for a row below 119, the
  specification's element part plus the two biases.
-/
import proofs.«179271_g70540542870206_cont_9to1c4b_451_4_alg».proof.Proof.Gen.KernelIdeal.Frame
import Idealize.ShloMosaic.PureOps.Ideal.Laws
import Idealize.ShloMosaic.Lib.ValueLayout
import Idealize.ShloMosaic.Lib.Tactic
import proofs.«179271_g70540542870206_cont_9to1c4b_451_4_alg».proof.Proof.LibMatmulSumT
import proofs.«179271_g70540542870206_cont_9to1c4b_451_4_alg».proof.Proof.KEntry0
import proofs.«179271_g70540542870206_cont_9to1c4b_451_4_alg».proof.Proof.Spec

noncomputable section

open Idealize.ShloMosaic Idealize.ShloMosaic.TcCoe Idealize.ShloMosaic.Tactic Idealize.ShloMosaic.ValueIdx Idealize.SL.Sem
open Idealize.ShloMosaic.Pipeline (Dat)

namespace Cert.KTable

open Cert.KernelIdeal Cert.KernelIdeal.Gen

variable (m : (ℓ : Loc nD τ sig) → Buf (Elt Ideal) ℓ) (ρ : Dev nD → PrngReg) (c : Dev nD)

open Cert.LibMatmulSumT

/-! # Region 0's value: the projected table

Region 0 has no grid: its one point stages each array whole, the body multiplies the padded table by the transpose of the
projection matrix into a zero accumulator and adds the bias row to every row, and the one write-back writes the whole
128 x 128 result. -/

theorem hz : (![0, 0] : Fin 2 → Nat) = fun _ => 0 := funext fun a => by fin_cases a <;> rfl

/-- The body's product contracts axis 1 of both operands. -/
theorem hdot : PlainT dot_S128x200_S128x200_S128x128_1_1_0_0_n_n where
  rank := rfl
  size := rfl
  l0 := fun i q => rfl
  l1 := fun i q => DotDims.lhsIdx_val_of_single _ (cl := 1) rfl i q
  r0 := fun i q => rfl
  r1 := fun i q => DotDims.rhsIdx_val_of_single _ (cr := 1) rfl i q

/-- The body's stored value at (p, q): row p of the first operand against row q of the second, plus the row's entry q. -/
theorem pay_at (x0 x1 : Vec Ideal S128x200 .f32) (x2 : Vec Ideal S1x128 .f32) (p q : Fin 128) :
    k0_pay1 x0 x1 x2 (ix2 p q) = (∑ f : Fin 200, x0 (ix2 p f) * x1 (ix2 q f)) + x2 (ix2 (0 : Fin 1) q) := by
  unfold k0_pay1
  refine (addf_apply _ _ _).trans ?_
  rw [shapeCast_self, shapeCast_self]
  exact congrArg₂ (· + ·) (matmul_zero_at_T hdot none x0 x1 p q) (broadcastTo_1b_ab_apply x2 broadcasts_S1x128_S128x128 p q)

/-- The table region 0 leaves, as one function of its entry contents. -/
def tableG : FVec Ideal S128x128 .f32 := fun i =>
  (∑ f : Fin 200, padded m ρ c (ix2 (i 0) f) * projW m ρ c (ix2 (i 1) f)) + biasRow m ρ c (ix2 (0 : Fin 1) (i 1))

theorem tableG_ix2 (v d : Fin 128) : tableG m ρ c (ix2 v d)
    = (∑ f : Fin 200, padded m ρ c (ix2 v f) * projW m ρ c (ix2 d f)) + biasRow m ρ c (ix2 (0 : Fin 1) d) := rfl

/-- Each input window's one block is its whole array. -/
theorem iblk0_0 : iblk0 (F := Ideal) (V1 m ρ) c 0 t0_0 = padded m ρ c :=
  Memref.read_access_unit_zero (Elt Ideal) main_v2 (off := fun a => win0_0.index t0_0 a * main_v2.ty.shape.size a)
    (funext fun a => by fin_cases a <;> decide) _ _
theorem iblk0_1 : iblk0 (F := Ideal) (V1 m ρ) c 1 t0_0 = projW m ρ c :=
  Memref.read_access_unit_zero (Elt Ideal) main_arg3 (off := fun a => win0_1.index t0_0 a * main_arg3.ty.shape.size a)
    (funext fun a => by fin_cases a <;> decide) _ _
theorem iblk0_2 : iblk0 (F := Ideal) (V1 m ρ) c 2 t0_0 = biasRow m ρ c :=
  Memref.read_access_unit_zero (Elt Ideal) main_v4 (off := fun a => win0_2.index t0_0 a * main_v4.ty.shape.size a)
    (funext fun a => by fin_cases a <;> decide) _ _

/-- The one write-back writes `tableG`. -/
theorem flushed_eq (t : Fin cfg0.N) :
    (dat0 (F := Ideal) (V1 m ρ) c).flushed 3 t = ((cfg0.win 3).blk t).view.read (Elt Ideal) (tableG m ρ c) := by
  obtain rfl := fin_N0 t
  have hw : ((cfg0.win 3).blk t0_0).view.read (Elt Ideal) (tableG m ρ c) = tableG m ρ c :=
    Memref.read_access_unit_zero (Elt Ideal) main_v5 (off := fun a => win0_3.index t0_0 a * main_v5.ty.shape.size a)
      (funext fun a => by fin_cases a <;> decide) _ _
  rw [hw]
  show (cfg0.win 3).cut (grid0.coords t0_0) ((dat0 (F := Ideal) (V1 m ρ) c).after 3 t0_0) = _
  rw [after0_3]
  unfold out0_3
  rw [View.canon_unit_zero hz]
  simp only [View.ld_unit_zero (S := S128x200) hz, View.ld_unit_zero (S := S1x128) hz]
  rw [iblk0_0, iblk0_1, iblk0_2]
  funext j
  obtain ⟨p, q, rfl⟩ : ∃ (p : Fin 128) (q : Fin 128), j = ix2 p q := ⟨j 0, j 1, eq_ix2 j⟩
  exact pay_at _ _ _ p q

/-- The one point's block is the whole array. -/
theorem cover (i : S128x128.Idx) : ∃ t : Fin cfg0.N, (cfg0.win 3).flush t = true ∧ i ∈ ((cfg0.win 3).blk t).view.set := by
  refine ⟨t0_0, flush0_3 t0_0, ?_⟩
  show i ∈ ((View.whole main_v5).slice (win0_3.rect t0_0)).set
  rw [View.set_slice_whole, Rect.mem_set_unit]
  intro a
  have h0 : (i 0 : Nat) < 128 := (i 0).isLt
  have h1 : (i 1 : Nat) < 128 := (i 1).isLt
  match a with
  | ⟨0, _⟩ =>
    show win0_3.index t0_0 0 * win0_3.size 0 ≤ (i 0 : Nat) ∧ (i 0 : Nat) < win0_3.index t0_0 0 * win0_3.size 0 + win0_3.xsize (grid0.coords t0_0) 0
    rw [show win0_3.index t0_0 0 * win0_3.size 0 = 0 from by decide +kernel, show win0_3.xsize (grid0.coords t0_0) 0 = 128 from by decide +kernel]; omega
  | ⟨1, _⟩ =>
    show win0_3.index t0_0 1 * win0_3.size 1 ≤ (i 1 : Nat) ∧ (i 1 : Nat) < win0_3.index t0_0 1 * win0_3.size 1 + win0_3.xsize (grid0.coords t0_0) 1
    rw [show win0_3.index t0_0 1 * win0_3.size 1 = 0 from by decide +kernel, show win0_3.xsize (grid0.coords t0_0) 1 = 128 from by decide +kernel]; omega

/-- The table array after region 0. -/
theorem table_eq : (dat0 (F := Ideal) (V1 m ρ) c).arrAt 3 cfg0.N = tableG m ρ c :=
  (dat0 (F := Ideal) (V1 m ρ) c).arrAt_eq_of_cover 3 (tableG m ρ c) (fun t _ => flushed_eq m ρ c t) (cover)

/-- Entry (v, d) of the table: row v of the padded table against row d of the projection matrix, plus the two biases. -/
theorem table_at (v d : Fin 128) :
    ((dat0 (F := Ideal) (V1 m ρ) c).arrAt 3 cfg0.N : FVec Ideal S128x128 .f32) (ix2 v d)
      = (∑ f : Fin 200, padded m ρ c (ix2 v f) * A3 m c (ix2 d f)) + (A4 m c (ix1 d) + A8 m c (ix1 d)) := by
  rw [table_eq, tableG_ix2, projW_eq, biasRow_at]

/-- A row below 119: the specification's element part plus the two biases. -/
theorem table_row (r : Fin 119) (d : Fin 128) :
    ((dat0 (F := Ideal) (V1 m ρ) c).arrAt 3 cfg0.N : FVec Ideal S128x128 .f32) (ix2 ⟨r.val, by omega⟩ d)
      = Cert.Embed.proj (A2 m c) (A3 m c) r d + (A4 m c (ix1 d) + A8 m c (ix1 d)) := by
  rw [table_at]
  unfold Cert.Embed.proj
  exact congrArg (· + (A4 m c (ix1 d) + A8 m c (ix1 d)))
    (Finset.sum_congr rfl fun f _ => congrArg (· * A3 m c (ix2 d f)) (padded_row m ρ c r f))

end Cert.KTable
end
-- ==== Proof.KResult.lean ====
/-
  The kernel's result array is the specification.

  Region 1 leaves, in the result buffer, the whole-array function of its six input arrays (`Cert.KBlocks1.final`).
  Those arrays, as region 1 finds them, are: the element numbers and the fractions as launched; region 0's table,
  whose row r < 119 is the projection of feature row r plus the sum of the two output biases; the first layer's
  weights and biases read as 1 x 64 rows; the second layer transposed. With the element number of every position
  given by a row selector below 119, the lane sum picks that table row and the four summands regroup to the
  specification's entry (`Cert.KBridge.whole_eq_embAt`).
-/
import proofs.«179271_g70540542870206_cont_9to1c4b_451_4_alg».proof.Proof.Gen.KernelIdeal.Frame
import proofs.«179271_g70540542870206_cont_9to1c4b_451_4_alg».proof.Proof.Spec
import proofs.«179271_g70540542870206_cont_9to1c4b_451_4_alg».proof.Proof.KBridge
import proofs.«179271_g70540542870206_cont_9to1c4b_451_4_alg».proof.Proof.KBlocks1
import proofs.«179271_g70540542870206_cont_9to1c4b_451_4_alg».proof.Proof.KEntry1
import proofs.«179271_g70540542870206_cont_9to1c4b_451_4_alg».proof.Proof.KTable

noncomputable section

open scoped BigOperators

namespace Cert.KResult

open Idealize.ShloMosaic Idealize.ShloMosaic.ValueIdx Cert.KernelIdeal Cert.KernelIdeal.Gen

variable (m : (ℓ : Loc nD τ sig) → Buf (Elt Ideal) ℓ) (ρ : Dev nD → PrngReg) (c : Dev nD)

theorem kernel_result (row : Fin 16384 → Fin 20 → Fin 119)
    (hrow : ∀ (b : Fin 16384) (l : Fin 20), (m ((c.tc : Thread nD τ).loc main_arg0)) (ix2 b l) = BitVec.ofNat 32 (row b l).val) :
    (dat1 (F := Ideal) (V3 m ρ) c).arrAt 6 cfg1.N
      = Cert.Embed.emb row (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  rw [Cert.KBlocks1.final (V3 m ρ) c]
  funext i
  obtain ⟨b, l, d, rfl⟩ : ∃ (b : Fin 16384) (l : Fin 20) (d : Fin 128), i = ix3 b l d := ⟨i 0, i 1, i 2, eq_ix3 i⟩
  show Cert.KBlocks1.wholeAt (V3 m ρ c main_arg0) (V3 m ρ c main_arg1) (V3 m ρ c main_v5) (V3 m ρ c main_v6) (V3 m ρ c main_v7)
      (V3 m ρ c main_v8) b l d = Cert.Embed.embAt row _ _ _ _ _ _ _ _ b l d
  unfold Cert.KBlocks1.wholeAt
  rw [Cert.KEntry1.entry_idx m ρ c, Cert.KEntry1.entry_frac m ρ c, Cert.KEntry1.entry_tab m ρ c]
  exact Cert.KBridge.whole_eq_embAt row _ _ _ _ _ _ _ _ _ _ _ _ _ hrow
    (fun r d => Cert.KTable.table_row m ρ c r d)
    (fun h => Cert.KEntry1.entry_w1 m ρ c h) (fun h => Cert.KEntry1.entry_b1 m ρ c h)
    (fun h d => Cert.KEntry1.entry_w2t m ρ c h d) b l d

end Cert.KResult

end
-- ==== Proof.RefRun.lean ====
/-
  The reference's run, read back.

  The reference program is a straight line of forty-six array operations: the twenty-three of the row lookup
  (a negative row number is moved up by 119, the rows are gathered from the feature table, and a mask "the row
  number is between 0 and 118" keeps the gathered value or a not-a-number word), written out here over the
  buffers of that one call, and then the twenty-three of the two affine layers and their sum. Run from any
  memory, the program ends with the result buffer at `resOf` of the nine argument arrays and the arguments
  unchanged. `resOf` is given stage by stage: every stage a named array function of the arguments.
-/
import proofs.«179271_g70540542870206_cont_9to1c4b_451_4_alg».proof.Proof.Gen.ReferenceIdeal
import Idealize.ShloMosaic.Lib.StableHlo.Run

noncomputable section

namespace Cert.RefValue

open Cert.ReferenceIdeal Idealize.ShloMosaic Idealize.ShloMosaic.TcCoe Idealize.SL.Sem Idealize.ShloMosaic.StableHlo
open Cert.ReferenceIdeal.Facts₀

variable {F : FTy → Type} [FloatOps F]

/-! ## The stages, as array functions of the arguments -/

/-- The row numbers after the wrap-around: a negative one has 119 added. -/
def rowIdx (idx : IVec S16384x20 32) : IVec S16384x20 32 :=
  select (cmpi .slt idx (broadcastInDim S16384x20 ![] bcast_S_S16384x20 (constantI S_ 32 0#32)))
    (addi idx (broadcastInDim S16384x20 ![] bcast_S_S16384x20 (constantI S_ 32 119#32))) idx

/-- The same with a trailing unit axis: the gather's start indices. -/
def rowIdx3 (idx : IVec S16384x20 32) : IVec S16384x20x1 32 :=
  broadcastInDim S16384x20x1 ![0, 1] bcast_S16384x20_S16384x20x1_0_1 (rowIdx idx)

/-- The mask "0 ≤ row number ≤ 118", reduced with `and` over the unit axis. -/
def rowMask (idx : IVec S16384x20 32) : IVec S16384x20 1 :=
  Host.reduce IntOp.andi
    (andi (cmpi .sge (rowIdx3 idx) (broadcastInDim S16384x20x1 ![] bcast_S_S16384x20x1 (constantI S_ 32 0#32)))
      (cmpi .sle (rowIdx3 idx)
        (broadcastInDim S16384x20x1 ![0, 1, 2] bcast_S1x1x1_S16384x20x1_0_1_2
          (broadcastInDim S1x1x1 ![2] bcast_S1_S1x1x1_2 (constantI S1 32 118#32)))))
    (constantI S_ 1 1#1) reducesTo_S16384x20x1_S16384x20_d2 h_S_

/-- The gathered rows of the feature table. -/
def rowGather (idx : IVec S16384x20 32) (cbfv : FVec F S119x200 .f32) : FVec F S16384x20x200 .f32 :=
  Host.gather gather_S119x200_S16384x20x1_S16384x20x200_2_0_n_n_0_2_1200 cbfv (rowIdx3 idx)

/-- The looked-up rows: the gathered value where the mask holds, the not-a-number word elsewhere. -/
def rows (idx : IVec S16384x20 32) (cbfv : FVec F S119x200 .f32) : FVec F S16384x20x200 .f32 :=
  select (broadcastInDim S16384x20x200 ![0, 1] bcast_S16384x20_S16384x20x200_0_1 (rowMask idx)) (rowGather idx cbfv)
    (broadcastInDim S16384x20x200 ![] bcast_S_S16384x20x200 (constant S_ .f32 0x7FC00000#32))

/-- The element part: the looked-up rows against the projection, plus its bias. -/
def elemPart (idx : IVec S16384x20 32) (cbfv : FVec F S119x200 .f32) (W : FVec F S128x200 .f32) (pb : FVec F S128 .f32) :
    FVec F S16384x20x128 .f32 :=
  addf (Host.dotGeneral dot_S16384x20x200_S128x200_S16384x20x128_2_1_01_0_n_n none (rows idx cbfv) W)
    (broadcastInDim S16384x20x128 ![0, 1, 2] bcast_S1x1x128_S16384x20x128_0_1_2
      (broadcastInDim S1x1x128 ![2] bcast_S128_S1x1x128_2 pb))

/-- The hidden layer before its activation: the fraction against the first layer, plus its bias. -/
def preAct (frac : FVec F S16384x20 .f32) (w1 : FVec F S64x1 .f32) (b1 : FVec F S64 .f32) : FVec F S16384x20x64 .f32 :=
  addf (Host.dotGeneral dot_S16384x20x1_S64x1_S16384x20x64_2_1_01_0_n_n none
      (broadcastInDim S16384x20x1 ![0, 1] bcast_S16384x20_S16384x20x1_0_1 frac) w1)
    (broadcastInDim S16384x20x64 ![0, 1, 2] bcast_S1x1x64_S16384x20x64_0_1_2
      (broadcastInDim S1x1x64 ![2] bcast_S64_S1x1x64_2 b1))

/-- The hidden layer: `z * (1 / (1 + exp (-z)))` of the pre-activation `z`. -/
def hidden (frac : FVec F S16384x20 .f32) (w1 : FVec F S64x1 .f32) (b1 : FVec F S64 .f32) : FVec F S16384x20x64 .f32 :=
  mulf (preAct frac w1 b1)
    (Host.divf (broadcastInDim S16384x20x64 ![] bcast_S_S16384x20x64 (constant S_ .f32 0x3F800000#32))
      (addf (broadcastInDim S16384x20x64 ![] bcast_S_S16384x20x64 (constant S_ .f32 0x3F800000#32))
        (Host.exp (Host.negf (preAct frac w1 b1)))))

/-- The fraction part: the hidden layer against the second layer, plus its bias. -/
def fracPart (frac : FVec F S16384x20 .f32) (w1 : FVec F S64x1 .f32) (b1 : FVec F S64 .f32) (w2 : FVec F S128x64 .f32)
    (b2 : FVec F S128 .f32) : FVec F S16384x20x128 .f32 :=
  addf (Host.dotGeneral dot_S16384x20x64_S128x64_S16384x20x128_2_1_01_0_n_n none (hidden frac w1 b1) w2)
    (broadcastInDim S16384x20x128 ![0, 1, 2] bcast_S1x1x128_S16384x20x128_0_1_2
      (broadcastInDim S1x1x128 ![2] bcast_S128_S1x1x128_2 b2))

/-- The result array of the nine argument arrays. -/
def resOf (idx : IVec S16384x20 32) (frac : FVec F S16384x20 .f32) (cbfv : FVec F S119x200 .f32) (W : FVec F S128x200 .f32)
    (pb : FVec F S128 .f32) (w1 : FVec F S64x1 .f32) (b1 : FVec F S64 .f32) (w2 : FVec F S128x64 .f32) (b2 : FVec F S128 .f32) :
    FVec F S16384x20x128 .f32 :=
  addf (elemPart idx cbfv W pb) (fracPart frac w1 b1 w2 b2)

/-- The result array of a memory's argument buffers on device `c`. -/
abbrev res (m : (ℓ : Loc nD τ sig) → Buf (Elt F) ℓ) (c : Dev nD) : FVec F S16384x20x128 .f32 :=
  resOf (F := F) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8))

/-! ## The program as a list of operations -/

/-- The forty-six operations, in order: the row lookup's over the buffers of its call (the wrap-around's select
    among them), then the program's own. -/
abbrev ops : List (HloOp τ sig (Elt F)) :=
  [ TRef.nullary main_call0.c (constantI S_ 32 0#32),
    TRef.unary main_call0.c main_call0.v0 (broadcastInDim S16384x20 ![] bcast_S_S16384x20),
    TRef.binary (.of main_arg0) main_call0.v0 main_call0.v1 (cmpi .slt),
    TRef.nullary main_call0.c_0 (constantI S_ 32 119#32),
    TRef.unary main_call0.c_0 main_call0.v2 (broadcastInDim S16384x20 ![] bcast_S_S16384x20),
    TRef.binary (.of main_arg0) main_call0.v2 main_call0.v3 addi,
    TRef.ternary main_call0.v1 main_call0.v3 (.of main_arg0) main_call0.call0.v0 select,
    TRef.unary main_call0.call0.v0 main_call0.v5 (broadcastInDim S16384x20x1 ![0, 1] bcast_S16384x20_S16384x20x1_0_1),
    TRef.nullary main_call0.c_1 (constantI S1 32 118#32),
    TRef.nullary main_call0.c_2 (constantI S_ 32 0#32),
    TRef.unary main_call0.c_2 main_call0.v6 (broadcastInDim S16384x20x1 ![] bcast_S_S16384x20x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S16384x20x1 ![0, 1, 2] bcast_S1x1x1_S16384x20x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x20x1_S16384x20_d2 h_S_),
    TRef.binary (.of main_arg2) main_call0.v5 main_call0.v13 (fun x i => Host.gather gather_S119x200_S16384x20x1_S16384x20x200_2_0_n_n_0_2_1200 x i),
    TRef.unary main_call0.v12 main_call0.v14 (broadcastInDim S16384x20x200 ![0, 1] bcast_S16384x20_S16384x20x200_0_1),
    TRef.nullary main_call0.cst (constant S_ .f32 0x7FC00000#32),
    TRef.unary main_call0.cst main_call0.v15 (broadcastInDim S16384x20x200 ![] bcast_S_S16384x20x200),
    TRef.ternary main_call0.v14 main_call0.v13 main_call0.v15 main_call0.v16 select,
    binary main_v0 main_arg3 main_v1 ((fun l r => Host.dotGeneral dot_S16384x20x200_S128x200_S16384x20x128_2_1_01_0_n_n none l r) : (⟨S16384x20x200, .f32⟩ : BufTy).Contents (Elt F) → (⟨S128x200, .f32⟩ : BufTy).Contents (Elt F) → (⟨S16384x20x128, .f32⟩ : BufTy).Contents (Elt F)),
    unary main_arg4 main_v2 (broadcastInDim S1x1x128 ![2] bcast_S128_S1x1x128_2 : (⟨S128, .f32⟩ : BufTy).Contents (Elt F) → (⟨S1x1x128, .f32⟩ : BufTy).Contents (Elt F)),
    unary main_v2 main_v3 (broadcastInDim S16384x20x128 ![0, 1, 2] bcast_S1x1x128_S16384x20x128_0_1_2 : (⟨S1x1x128, .f32⟩ : BufTy).Contents (Elt F) → (⟨S16384x20x128, .f32⟩ : BufTy).Contents (Elt F)),
    binary main_v1 main_v3 main_v4 (addf : (⟨S16384x20x128, .f32⟩ : BufTy).Contents (Elt F) → (⟨S16384x20x128, .f32⟩ : BufTy).Contents (Elt F) → (⟨S16384x20x128, .f32⟩ : BufTy).Contents (Elt F)),
    unary main_arg1 main_v5 (broadcastInDim S16384x20x1 ![0, 1] bcast_S16384x20_S16384x20x1_0_1 : (⟨S16384x20, .f32⟩ : BufTy).Contents (Elt F) → (⟨S16384x20x1, .f32⟩ : BufTy).Contents (Elt F)),
    binary main_v5 main_arg5 main_v6 ((fun l r => Host.dotGeneral dot_S16384x20x1_S64x1_S16384x20x64_2_1_01_0_n_n none l r) : (⟨S16384x20x1, .f32⟩ : BufTy).Contents (Elt F) → (⟨S64x1, .f32⟩ : BufTy).Contents (Elt F) → (⟨S16384x20x64, .f32⟩ : BufTy).Contents (Elt F)),
    unary main_arg6 main_v7 (broadcastInDim S1x1x64 ![2] bcast_S64_S1x1x64_2 : (⟨S64, .f32⟩ : BufTy).Contents (Elt F) → (⟨S1x1x64, .f32⟩ : BufTy).Contents (Elt F)),
    unary main_v7 main_v8 (broadcastInDim S16384x20x64 ![0, 1, 2] bcast_S1x1x64_S16384x20x64_0_1_2 : (⟨S1x1x64, .f32⟩ : BufTy).Contents (Elt F) → (⟨S16384x20x64, .f32⟩ : BufTy).Contents (Elt F)),
    binary main_v6 main_v8 main_v9 (addf : (⟨S16384x20x64, .f32⟩ : BufTy).Contents (Elt F) → (⟨S16384x20x64, .f32⟩ : BufTy).Contents (Elt F) → (⟨S16384x20x64, .f32⟩ : BufTy).Contents (Elt F)),
    unary main_v9 main_v10 (Host.negf : (⟨S16384x20x64, .f32⟩ : BufTy).Contents (Elt F) → (⟨S16384x20x64, .f32⟩ : BufTy).Contents (Elt F)),
    unary main_v10 main_v11 (Host.exp : (⟨S16384x20x64, .f32⟩ : BufTy).Contents (Elt F) → (⟨S16384x20x64, .f32⟩ : BufTy).Contents (Elt F)),
    nullary main_cst (constant S_ .f32 0x3F800000#32),
    unary main_cst main_v12 (broadcastInDim S16384x20x64 ![] bcast_S_S16384x20x64 : (⟨S_, .f32⟩ : BufTy).Contents (Elt F) → (⟨S16384x20x64, .f32⟩ : BufTy).Contents (Elt F)),
    binary main_v12 main_v11 main_v13 (addf : (⟨S16384x20x64, .f32⟩ : BufTy).Contents (Elt F) → (⟨S16384x20x64, .f32⟩ : BufTy).Contents (Elt F) → (⟨S16384x20x64, .f32⟩ : BufTy).Contents (Elt F)),
    nullary main_cst_0 (constant S_ .f32 0x3F800000#32),
    unary main_cst_0 main_v14 (broadcastInDim S16384x20x64 ![] bcast_S_S16384x20x64 : (⟨S_, .f32⟩ : BufTy).Contents (Elt F) → (⟨S16384x20x64, .f32⟩ : BufTy).Contents (Elt F)),
    binary main_v14 main_v13 main_v15 (Host.divf : (⟨S16384x20x64, .f32⟩ : BufTy).Contents (Elt F) → (⟨S16384x20x64, .f32⟩ : BufTy).Contents (Elt F) → (⟨S16384x20x64, .f32⟩ : BufTy).Contents (Elt F)),
    binary main_v9 main_v15 main_v16 (mulf : (⟨S16384x20x64, .f32⟩ : BufTy).Contents (Elt F) → (⟨S16384x20x64, .f32⟩ : BufTy).Contents (Elt F) → (⟨S16384x20x64, .f32⟩ : BufTy).Contents (Elt F)),
    binary main_v16 main_arg7 main_v17 ((fun l r => Host.dotGeneral dot_S16384x20x64_S128x64_S16384x20x128_2_1_01_0_n_n none l r) : (⟨S16384x20x64, .f32⟩ : BufTy).Contents (Elt F) → (⟨S128x64, .f32⟩ : BufTy).Contents (Elt F) → (⟨S16384x20x128, .f32⟩ : BufTy).Contents (Elt F)),
    unary main_arg8 main_v18 (broadcastInDim S1x1x128 ![2] bcast_S128_S1x1x128_2 : (⟨S128, .f32⟩ : BufTy).Contents (Elt F) → (⟨S1x1x128, .f32⟩ : BufTy).Contents (Elt F)),
    unary main_v18 main_v19 (broadcastInDim S16384x20x128 ![0, 1, 2] bcast_S1x1x128_S16384x20x128_0_1_2 : (⟨S1x1x128, .f32⟩ : BufTy).Contents (Elt F) → (⟨S16384x20x128, .f32⟩ : BufTy).Contents (Elt F)),
    binary main_v17 main_v19 main_v20 (addf : (⟨S16384x20x128, .f32⟩ : BufTy).Contents (Elt F) → (⟨S16384x20x128, .f32⟩ : BufTy).Contents (Elt F) → (⟨S16384x20x128, .f32⟩ : BufTy).Contents (Elt F)),
    binary main_v4 main_v20 main_v21 (addf : (⟨S16384x20x128, .f32⟩ : BufTy).Contents (Elt F) → (⟨S16384x20x128, .f32⟩ : BufTy).Contents (Elt F) → (⟨S16384x20x128, .f32⟩ : BufTy).Contents (Elt F)) ]

-- forty-six binds re-associated: the rewrite under the chain recurses once per statement
set_option maxRecDepth 2048 in
/-- The program is that straight line: the two functions' definitions unfolded at their calls, both sides are one
    chain of steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    binary_bufs_sub .., unary_bufs_sub .., unary_bufs_sub .., binary_bufs_sub .., unary_bufs_sub .., binary_bufs_sub ..,
    unary_bufs_sub .., unary_bufs_sub .., binary_bufs_sub .., unary_bufs_sub .., unary_bufs_sub .., nullary_bufs_sub ..,
    unary_bufs_sub .., binary_bufs_sub .., nullary_bufs_sub .., unary_bufs_sub .., binary_bufs_sub .., binary_bufs_sub ..,
    binary_bufs_sub .., unary_bufs_sub .., unary_bufs_sub .., binary_bufs_sub .., binary_bufs_sub ..⟩

/-! ## What the buffers hold after the line -/

-- the row mask's reduction and the gather are folds and searches over their operands' elements: the equation below
-- never looks inside them
attribute [local irreducible] Host.reduce Host.gather in
set_option maxRecDepth 8192 in
/-- The result buffer after the forty-six operations is `resOf` of the argument buffers: each operation's result
    read at its own buffer, and the stages' definitions unfolded. -/
theorem out_eq (V : Valuation τ sig (Elt F)) :
    after ops V (main_v21 : DevRef τ sig)
      = resOf (F := F) (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig)) := by
  after_results_simp
  rfl

/-! No operation writes an argument buffer. -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

theorem arg8_eq (V : Valuation τ sig (Elt F)) :
    after ops V (main_arg8 : DevRef τ sig) = V (main_arg8 : DevRef τ sig) := by
  after_results_simp

/-- On every device, from any memory with zero counters: every weakly fair execution of the program terminates with
    the result buffer at `res` of the argument buffers' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v21) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v21).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _), (h c main_arg8).trans (arg8_eq _)⟩)
    (run_seq scopedRefs_eq scopedSems_eq defs main (fun _ => ops) main_eq (fun _ => ops_sub) m ρ)

end Cert.RefValue

end
-- ==== Proof.RefLemmas.lean ====
/-
  Small facts the reading of the reference's result uses, none of them about this program in particular.

  Words: a natural number below 2^31 written as a 32-bit word reads back, signed, as itself; so the signed comparisons of
  such a word with 0 and with 118 are decided. A reduction by `and` of an array of ones from the initial value one is one.
  Arrays: a gather of whole rows of a table (start indices with a trailing unit axis, the row axis collapsed) read at an
  index is the table at the row the start index names; a product contracting the last axis of a rank-3 array with the
  last axis of a matrix, read at an index on the extended reals, is the finite sum over the contracted coordinate.
-/
import Idealize.ShloMosaic.PureOps.Ideal.Laws
import Idealize.ShloMosaic.Lib.ValueIdx
import Idealize.ShloMosaic.Lib.Pipeline.Value
import Idealize.ShloMosaic.Lib.Affine

noncomputable section

open scoped BigOperators

namespace Cert.RefValue

open Idealize.ShloMosaic Idealize.ShloMosaic.ValueIdx

/-! ## Words -/

/-- A natural number below 2^31, written as a 32-bit word, reads back signed as itself. -/
theorem toInt_ofNat_small (n : Nat) (h : n < 2 ^ 31) : (BitVec.ofNat 32 n).toInt = n := by
  rw [BitVec.toInt_ofNat']
  exact Int.bmod_eq_of_le (by omega) (by omega)

/-- Such a word is not below zero … -/
theorem cmpi_slt_ofNat_zero (n : Nat) (h : n < 2 ^ 31) : IntOp.cmpi .slt (BitVec.ofNat 32 n) 0#32 = 0#1 := by
  refine eq_zero_of_ne_one fun e => ?_
  have h1 := IntOp.cmpi_slt.1 e
  have h0 : (0#32 : BitVec 32).toInt = 0 := by decide
  rw [toInt_ofNat_small n h, h0] at h1
  omega

/-- … it is at least zero … -/
theorem cmpi_sge_ofNat_zero (n : Nat) (h : n < 2 ^ 31) : IntOp.cmpi .sge (BitVec.ofNat 32 n) 0#32 = 1#1 := by
  refine IntOp.cmpi_sge.2 ?_
  have h0 : (0#32 : BitVec 32).toInt = 0 := by decide
  rw [toInt_ofNat_small n h, h0]
  omega

/-- … and at most 118 when the number is. -/
theorem cmpi_sle_ofNat_118 (n : Nat) (h : n ≤ 118) : IntOp.cmpi .sle (BitVec.ofNat 32 n) 118#32 = 1#1 := by
  refine IntOp.cmpi_sle.2 ?_
  have h0 : (118#32 : BitVec 32).toInt = 118 := by decide
  rw [toInt_ofNat_small n (by omega), h0]
  omega

/-- A left fold by `and` over ones, from one, is one. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    have h11 : IntOp.andi (1#1 : BitVec 1) 1#1 = 1#1 := by decide
    rw [List.foldl_cons, h a List.mem_cons_self, h11]
    exact foldl_andi_ones f l fun n hn => h n (List.mem_cons_of_mem _ hn)

/-- A reduction by `and` of an array of ones, from the initial value one, is one at every index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x _ fun n _ => hx n

/-! ## A gather of whole rows, read at an index -/

/-- Rows of an `N × K` table gathered at an `R × C × 1` array of start indices (the row axis collapsed, the whole row
    the slice): entry `(r, c, k)` of the result is the table at row `n`, column `k`, when the start index at
    `(r, c, 0)`, read signed, is the row number `n`. -/
theorem gather_rows_apply {N K R C w : Nat} {α : Type}
    (wf : GatherDims.WF ⟨2, ![N, K]⟩ ⟨3, ![R, C, 1]⟩ ⟨3, ![R, C, K]⟩ [2] [0] [] [0] [] 2 ![1, K])
    (x : (⟨2, ![N, K]⟩ : Shape).Idx → α) (idx : IVec ⟨3, ![R, C, 1]⟩ w) (r : Fin R) (c : Fin C) (k : Fin K) (n : Fin N)
    (hn : (idx (ix3 r c 0)).toInt.toNat = n.val) :
    Host.gather (⟨[2], [0], [], [], [0], 2, ![1, K], wf⟩ : GatherDims ⟨2, ![N, K]⟩ ⟨3, ![R, C, 1]⟩ ⟨3, ![R, C, K]⟩) x idx
        (ix3 r c k) = x (ix2 n k) := by
  unfold Host.gather
  congr 1
  funext a
  refine Fin.ext ?_
  match a with
  | ⟨0, _⟩ =>
    show GatherDims.start _ (ix3 r c k) idx 0 + GatherDims.batchCoord _ (ix3 r c k) 0 + GatherDims.offCoord _ (ix3 r c k) 0 = n.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ [(0 : Fin 2)] from List.mem_singleton.mpr rfl)]
    have hsi : GatherDims.siIdx (⟨[2], [0], [], [], [0], 2, ![1, K], wf⟩ : GatherDims ⟨2, ![N, K]⟩ ⟨3, ![R, C, 1]⟩ ⟨3, ![R, C, K]⟩)
        (ix3 r c k) ⟨List.idxOf (0 : Fin 2) [(0 : Fin 2)], List.idxOf_lt_length_iff.2 (List.mem_singleton.mpr rfl)⟩
          = ix3 r c 0 := by
      funext b; refine Fin.ext ?_
      match b with
      | ⟨0, _⟩ => rfl
      | ⟨1, _⟩ => rfl
      | ⟨2, _⟩ => rfl
    rw [hsi, hn]
    show min n.val (N - 1) = n.val
    have := n.isLt
    omega
  | ⟨1, _⟩ =>
    show GatherDims.start _ (ix3 r c k) idx 1 + GatherDims.batchCoord _ (ix3 r c k) 1 + GatherDims.offCoord _ (ix3 r c k) 1 = k.val
    rw [GatherDims.batchCoord_eq_zero _ _ _ List.not_mem_nil]
    have hs : GatherDims.start (⟨[2], [0], [], [], [0], 2, ![1, K], wf⟩ : GatherDims ⟨2, ![N, K]⟩ ⟨3, ![R, C, 1]⟩ ⟨3, ![R, C, K]⟩)
        (ix3 r c k) idx 1 = 0 := by
      unfold GatherDims.start
      rw [dif_neg (show ¬ (1 : Fin 2) ∈ [(0 : Fin 2)] by decide)]
    have ho : GatherDims.offCoord (⟨[2], [0], [], [], [0], 2, ![1, K], wf⟩ : GatherDims ⟨2, ![N, K]⟩ ⟨3, ![R, C, 1]⟩ ⟨3, ![R, C, K]⟩)
        (ix3 r c k) 1 = k.val := by
      unfold GatherDims.offCoord
      rw [dif_pos ((GatherDims.mem_sKept _ _).mpr ⟨(show ¬ (1 : Fin 2) ∈ [(0 : Fin 2)] by decide), List.not_mem_nil⟩)]
      rfl
    rw [hs, ho]
    omega

/-! ## A product contracting the last axes, read at an index -/

/-- An `A × B × K` array against an `N × K` matrix, the `K` axes contracted: entry `(a, b, n)` of the product, on the
    extended reals, is the sum over `k` of the entries' products. -/
theorem dot3_apply {A B N K : Nat} {φ₁ φ₂ : FTy}
    (w : DotDims.WF ⟨3, ![A, B, K]⟩ ⟨2, ![N, K]⟩ ⟨3, ![A, B, N]⟩ [2] [1] [0, 1] [0] [] [])
    (prec : Option ContractPrecision) (X : FVec Ideal ⟨3, ![A, B, K]⟩ φ₁) (Y : FVec Ideal ⟨2, ![N, K]⟩ φ₂)
    (a : Fin A) (b : Fin B) (n : Fin N) :
    Host.dotGeneral (⟨[2], [1], [0, 1], [0], [], [], w⟩ : DotDims ⟨3, ![A, B, K]⟩ ⟨2, ![N, K]⟩ ⟨3, ![A, B, N]⟩) prec X Y (ix3 a b n)
      = ∑ k : Fin K, X (ix3 a b k) * Y (ix2 n k) := by
  show FloatOps.dotGeneral _ prec _ X Y (ix3 a b n) = _
  rw [Ideal.dotGeneral_apply,
    ← Equiv.sum_comp (contrEquiv1 (⟨[2], [1], [0, 1], [0], [], [], w⟩ : DotDims ⟨3, ![A, B, K]⟩ ⟨2, ![N, K]⟩ ⟨3, ![A, B, N]⟩) K rfl rfl).symm]
  refine Finset.sum_congr rfl fun c _ => ?_
  have c3 := contrEquiv1_symm_val
    (⟨[2], [1], [0, 1], [0], [], [], w⟩ : DotDims ⟨3, ![A, B, K]⟩ ⟨2, ![N, K]⟩ ⟨3, ![A, B, N]⟩) K rfl rfl c
  have l3 : (⟨[2], [1], [0, 1], [0], [], [], w⟩ : DotDims ⟨3, ![A, B, K]⟩ ⟨2, ![N, K]⟩ ⟨3, ![A, B, N]⟩).lhsIdx (ix3 a b n)
      ((contrEquiv1 _ K rfl rfl).symm c) = ix3 a b c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [1], [0, 1], [0], [], [], w⟩ : DotDims ⟨3, ![A, B, K]⟩ ⟨2, ![N, K]⟩ ⟨3, ![A, B, N]⟩).rhsIdx (ix3 a b n)
      ((contrEquiv1 _ K rfl rfl).symm c) = ix2 n c := by
    funext ax; apply Fin.ext
    match ax with
    | ⟨0, _⟩ => simp [DotDims.rhsIdx]; rfl
    | ⟨1, _⟩ => simp [DotDims.rhsIdx]; exact c3
  rw [l3, r3]

/-! ## The word for one -/

/-- The single-precision pattern of 1.0 denotes the extended real one. -/
theorem ofBits_one_f32 : Ideal.ofBits .f32 0x3F800000#32 = 1 := by
  simp [Ideal.ofBits, Ideal.ieee, -EReal.coe_mul]; norm_num

end Cert.RefValue

end
-- ==== Proof.RefRead.lean ====
/-
  The reference's result, read entry by entry.

  With every row number of the batch given as a row of the feature table (`hrow`: the word at position `(b, l)` is the
  number `row b l`, below 119), the row lookup keeps the number as it is (it is not negative), its mask is all ones (the
  number is between 0 and 118), and the gather reads the table at row `row b l`. The three products contract one axis
  each and are finite sums on the extended reals; the sum over the axis of length one is its one term. The activation
  chain negate, exponential, add one, divide one is the logistic function there. So entry `(b, l, d)` of the result is
  the embedder's entry: (element sum + its bias) + (fraction sum + its bias).
-/
import proofs.«179271_g70540542870206_cont_9to1c4b_451_4_alg».proof.Proof.RefRun
import proofs.«179271_g70540542870206_cont_9to1c4b_451_4_alg».proof.Proof.RefLemmas
import proofs.«179271_g70540542870206_cont_9to1c4b_451_4_alg».proof.Proof.Spec

noncomputable section

open scoped BigOperators

namespace Cert.RefValue

open Cert.ReferenceIdeal Idealize.ShloMosaic Idealize.ShloMosaic.ValueIdx Idealize.ShloMosaic.TcCoe Idealize.SL.Sem
open Cert.ReferenceIdeal.Facts₀

/-! ## The layout operations, read at an index -/

/-- A bias over the 128 outputs, spread over the batch, read at `(b, l, d)`: the bias at `d`. -/
theorem bias128_apply (pb : FVec Ideal S128 .f32) (b : Fin 16384) (l : Fin 20) (d : Fin 128) :
    broadcastInDim S16384x20x128 ![0, 1, 2] bcast_S1x1x128_S16384x20x128_0_1_2
      (broadcastInDim S1x1x128 ![2] bcast_S128_S1x1x128_2 pb) (ix3 b l d) = pb (ix1 d) :=
  (broadcastInDim_apply _ _ _ (ix3 b l d) (ix3 (0 : Fin 1) (0 : Fin 1) d) fun a =>
      match a with | ⟨0, _⟩ => rfl | ⟨1, _⟩ => rfl | ⟨2, _⟩ => rfl).trans
    (broadcastInDim_apply _ _ pb (ix3 (0 : Fin 1) (0 : Fin 1) d) (ix1 d) fun a => match a with | ⟨0, _⟩ => rfl)

/-- A bias over the 64 hidden units, spread over the batch, read at `(b, l, h)`: the bias at `h`. -/
theorem bias64_apply (b1 : FVec Ideal S64 .f32) (b : Fin 16384) (l : Fin 20) (h : Fin 64) :
    broadcastInDim S16384x20x64 ![0, 1, 2] bcast_S1x1x64_S16384x20x64_0_1_2
      (broadcastInDim S1x1x64 ![2] bcast_S64_S1x1x64_2 b1) (ix3 b l h) = b1 (ix1 h) :=
  (broadcastInDim_apply _ _ _ (ix3 b l h) (ix3 (0 : Fin 1) (0 : Fin 1) h) fun a =>
      match a with | ⟨0, _⟩ => rfl | ⟨1, _⟩ => rfl | ⟨2, _⟩ => rfl).trans
    (broadcastInDim_apply _ _ b1 (ix3 (0 : Fin 1) (0 : Fin 1) h) (ix1 h) fun a => match a with | ⟨0, _⟩ => rfl)

/-- The fractions with a trailing unit axis, read at `(b, l, k)`: the fraction at `(b, l)`. -/
theorem frac3_apply (frac : FVec Ideal S16384x20 .f32) (b : Fin 16384) (l : Fin 20) (k : Fin 1) :
    broadcastInDim S16384x20x1 ![0, 1] bcast_S16384x20_S16384x20x1_0_1 frac (ix3 b l k) = frac (ix2 b l) :=
  broadcastInDim_apply _ _ frac (ix3 b l k) (ix2 b l) fun a => match a with | ⟨0, _⟩ => rfl | ⟨1, _⟩ => rfl

/-! ## The three products, read at an index -/

theorem dotElem_apply (X : FVec Ideal S16384x20x200 .f32) (W : FVec Ideal S128x200 .f32) (b : Fin 16384) (l : Fin 20) (d : Fin 128) :
    Host.dotGeneral dot_S16384x20x200_S128x200_S16384x20x128_2_1_01_0_n_n none X W (ix3 b l d)
      = ∑ f : Fin 200, X (ix3 b l f) * W (ix2 d f) :=
  dot3_apply _ none X W b l d

theorem dotFirst_apply (X : FVec Ideal S16384x20x1 .f32) (w1 : FVec Ideal S64x1 .f32) (b : Fin 16384) (l : Fin 20) (h : Fin 64) :
    Host.dotGeneral dot_S16384x20x1_S64x1_S16384x20x64_2_1_01_0_n_n none X w1 (ix3 b l h)
      = ∑ k : Fin 1, X (ix3 b l k) * w1 (ix2 h k) :=
  dot3_apply _ none X w1 b l h

theorem dotSecond_apply (X : FVec Ideal S16384x20x64 .f32) (w2 : FVec Ideal S128x64 .f32) (b : Fin 16384) (l : Fin 20) (d : Fin 128) :
    Host.dotGeneral dot_S16384x20x64_S128x64_S16384x20x128_2_1_01_0_n_n none X w2 (ix3 b l d)
      = ∑ h : Fin 64, X (ix3 b l h) * w2 (ix2 d h) :=
  dot3_apply _ none X w2 b l d

/-! ## The fraction part -/

/-- The pre-activation at `(b, l, h)`: the fraction through the affine map of unit `h`. -/
theorem preAct_apply (frac : FVec Ideal S16384x20 .f32) (w1 : FVec Ideal S64x1 .f32) (b1 : FVec Ideal S64 .f32)
    (b : Fin 16384) (l : Fin 20) (h : Fin 64) :
    preAct frac w1 b1 (ix3 b l h) = frac (ix2 b l) * w1 (ix2 h 0) + b1 (ix1 h) := by
  unfold preAct
  rw [addf_apply, dotFirst_apply, bias64_apply, Fin.sum_univ_one, frac3_apply]

/-- The hidden unit at `(b, l, h)`: `z * logistic z` of the pre-activation `z`. -/
theorem hidden_apply (frac : FVec Ideal S16384x20 .f32) (w1 : FVec Ideal S64x1 .f32) (b1 : FVec Ideal S64 .f32)
    (b : Fin 16384) (l : Fin 20) (h : Fin 64) :
    hidden frac w1 b1 (ix3 b l h) = Cert.Embed.hid frac w1 b1 b l h := by
  have hz : hidden frac w1 b1 (ix3 b l h)
      = preAct frac w1 b1 (ix3 b l h) * Ideal.div (Ideal.ofBits .f32 0x3F800000#32)
          (Ideal.ofBits .f32 0x3F800000#32 + Ideal.exp (-(preAct frac w1 b1 (ix3 b l h)))) := rfl
  rw [hz, ofBits_one_f32, preAct_apply]
  rfl

/-- The fraction part at `(b, l, d)`. -/
theorem fracPart_apply (frac : FVec Ideal S16384x20 .f32) (w1 : FVec Ideal S64x1 .f32) (b1 : FVec Ideal S64 .f32)
    (w2 : FVec Ideal S128x64 .f32) (b2 : FVec Ideal S128 .f32) (b : Fin 16384) (l : Fin 20) (d : Fin 128) :
    fracPart frac w1 b1 w2 b2 (ix3 b l d) = Cert.Embed.mlp frac w1 b1 w2 b l d + b2 (ix1 d) := by
  unfold fracPart Cert.Embed.mlp
  rw [addf_apply, dotSecond_apply, bias128_apply]
  refine congrArg (· + b2 (ix1 d)) (Finset.sum_congr rfl fun h _ => ?_)
  rw [hidden_apply]

/-! ## The element part, under the row selector -/

section Rows

variable (idx : IVec S16384x20 32) (row : Fin 16384 → Fin 20 → Fin 119)
  (hrow : ∀ (b : Fin 16384) (l : Fin 20), idx (ix2 b l) = BitVec.ofNat 32 (row b l).val)
include hrow

/-- The wrap-around keeps a row number that is not negative. -/
theorem rowIdx_apply (b : Fin 16384) (l : Fin 20) : rowIdx idx (ix2 b l) = BitVec.ofNat 32 (row b l).val := by
  have hr : (row b l).val < 2 ^ 31 := by have := (row b l).isLt; omega
  have hz : rowIdx idx (ix2 b l)
      = Scalar.select (IntOp.cmpi .slt (idx (ix2 b l)) 0#32) (IntOp.addi (idx (ix2 b l)) 119#32) (idx (ix2 b l)) := rfl
  rw [hz, hrow b l, cmpi_slt_ofNat_zero _ hr, select_zero]

/-- The start index at `(b, l, u)` is the row number at `(b, l)`. -/
theorem rowIdx3_apply (b : Fin 16384) (l : Fin 20) (u : Fin 1) :
    rowIdx3 idx (ix3 b l u) = BitVec.ofNat 32 (row b l).val := by
  unfold rowIdx3
  exact (broadcastInDim_apply _ _ _ (ix3 b l u) (ix2 b l) fun a => match a with | ⟨0, _⟩ => rfl | ⟨1, _⟩ => rfl).trans
    (rowIdx_apply idx row hrow b l)

/-- The mask is one everywhere: every row number is between 0 and 118. -/
theorem rowMask_apply (j : S16384x20.Idx) : rowMask idx j = 1#1 := by
  unfold rowMask
  refine reduce_andi_ones _ _ _ _ (fun i => ?_) (fun _ => rfl) j
  obtain ⟨b, l, u, rfl⟩ : ∃ (b : Fin 16384) (l : Fin 20) (u : Fin 1), i = ix3 b l u := ⟨i 0, i 1, i 2, eq_ix3 i⟩
  have hr : (row b l).val < 119 := (row b l).isLt
  have hz : andi (cmpi .sge (rowIdx3 idx) (broadcastInDim S16384x20x1 ![] bcast_S_S16384x20x1 (constantI S_ 32 0#32)))
        (cmpi .sle (rowIdx3 idx)
          (broadcastInDim S16384x20x1 ![0, 1, 2] bcast_S1x1x1_S16384x20x1_0_1_2
            (broadcastInDim S1x1x1 ![2] bcast_S1_S1x1x1_2 (constantI S1 32 118#32)))) (ix3 b l u)
      = IntOp.andi (IntOp.cmpi .sge (rowIdx3 idx (ix3 b l u)) 0#32) (IntOp.cmpi .sle (rowIdx3 idx (ix3 b l u)) 118#32) := rfl
  rw [hz, rowIdx3_apply idx row hrow b l u, cmpi_sge_ofNat_zero _ (by omega), cmpi_sle_ofNat_118 _ (by omega)]
  decide

/-- The gather reads the feature table at the selected row. -/
theorem rowGather_apply (cbfv : FVec Ideal S119x200 .f32) (b : Fin 16384) (l : Fin 20) (f : Fin 200) :
    rowGather idx cbfv (ix3 b l f) = cbfv (ix2 (row b l) f) := by
  have hr : (row b l).val < 2 ^ 31 := by have := (row b l).isLt; omega
  unfold rowGather
  refine gather_rows_apply _ cbfv (rowIdx3 idx) b l f (row b l) ?_
  rw [rowIdx3_apply idx row hrow b l 0, toInt_ofNat_small _ hr]
  omega

/-- The looked-up rows at `(b, l, f)`: the feature table at the selected row. -/
theorem rows_apply (cbfv : FVec Ideal S119x200 .f32) (b : Fin 16384) (l : Fin 20) (f : Fin 200) :
    rows idx cbfv (ix3 b l f) = cbfv (ix2 (row b l) f) := by
  have hm : broadcastInDim S16384x20x200 ![0, 1] bcast_S16384x20_S16384x20x200_0_1 (rowMask idx) (ix3 b l f) = 1#1 :=
    (broadcastInDim_apply _ _ _ (ix3 b l f) (ix2 b l) fun a => match a with | ⟨0, _⟩ => rfl | ⟨1, _⟩ => rfl).trans
      (rowMask_apply idx row hrow (ix2 b l))
  have hz : rows idx cbfv (ix3 b l f)
      = Scalar.select (broadcastInDim S16384x20x200 ![0, 1] bcast_S16384x20_S16384x20x200_0_1 (rowMask idx) (ix3 b l f))
          (rowGather idx cbfv (ix3 b l f))
          (broadcastInDim S16384x20x200 ![] bcast_S_S16384x20x200 (constant (F := Ideal) S_ .f32 0x7FC00000#32) (ix3 b l f)) := rfl
  rw [hz, hm, select_one]
  exact rowGather_apply idx row hrow cbfv b l f

/-- The element part at `(b, l, d)`. -/
theorem elemPart_apply (cbfv : FVec Ideal S119x200 .f32) (W : FVec Ideal S128x200 .f32) (pb : FVec Ideal S128 .f32)
    (b : Fin 16384) (l : Fin 20) (d : Fin 128) :
    elemPart idx cbfv W pb (ix3 b l d) = Cert.Embed.proj cbfv W (row b l) d + pb (ix1 d) := by
  unfold elemPart Cert.Embed.proj
  rw [addf_apply, dotElem_apply, bias128_apply]
  refine congrArg (· + pb (ix1 d)) (Finset.sum_congr rfl fun f _ => ?_)
  rw [rows_apply idx row hrow cbfv b l f]

/-- Entry `(b, l, d)` of the result is the embedder's entry. -/
theorem resOf_apply (frac : FVec Ideal S16384x20 .f32) (cbfv : FVec Ideal S119x200 .f32) (W : FVec Ideal S128x200 .f32)
    (pb : FVec Ideal S128 .f32) (w1 : FVec Ideal S64x1 .f32) (b1 : FVec Ideal S64 .f32) (w2 : FVec Ideal S128x64 .f32)
    (b2 : FVec Ideal S128 .f32) (b : Fin 16384) (l : Fin 20) (d : Fin 128) :
    resOf idx frac cbfv W pb w1 b1 w2 b2 (ix3 b l d) = Cert.Embed.embAt row frac cbfv W pb w1 b1 w2 b2 b l d := by
  unfold resOf Cert.Embed.embAt
  rw [addf_apply, elemPart_apply idx row hrow, fracPart_apply]

end Rows

/-! ## The whole array -/

/-- Under the row selector the reference's result array is the embedder's. -/
theorem res_eq (m : (ℓ : Loc nD τ sig) → Buf (Elt Ideal) ℓ) (c : Dev nD) (row : Fin 16384 → Fin 20 → Fin 119)
    (hrow : ∀ (b : Fin 16384) (l : Fin 20),
      (m ((c.tc : Thread nD τ).loc main_arg0)) (ix2 b l) = BitVec.ofNat 32 (row b l).val) :
    res m c = Cert.Embed.emb row (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) := by
  funext i
  obtain ⟨b, l, d, rfl⟩ : ∃ (b : Fin 16384) (l : Fin 20) (d : Fin 128), i = ix3 b l d := ⟨i 0, i 1, i 2, eq_ix3 i⟩
  rw [Cert.Embed.emb_ix3]
  exact resOf_apply _ row hrow _ _ _ _ _ _ _ _ b l d

end Cert.RefValue

end
-- ==== Proof.lean ====
/- The proof of `Cert.Claim` (proofs.«179271_g70540542870206_cont_9to1c4b_451_4_alg».proof.Defs).

   The kernel embeds a batch of (element number, fraction) pairs: entry (b, l, d) of its result is
       (sum over 200 features f of cbfv[idx(b,l), f] * W[d, f] + pb[d]) + (sum over 64 hidden units h of silu(frac(b,l) * w1[h] + b1[h]) * w2[d, h] + b2[d]).
   The reference gathers the feature row and applies the two affine layers as written. The kernel first builds a
   128 x 128 table (the zero-padded feature rows projected, both output biases added to every row), then, one
   256-row block at a time and one column l at a time, multiplies the indicator of the element number by the table
   and adds the hidden layer times the transposed second layer.

   Under the precondition every element number lies in [0, 119), so it names a table row (`Cert.PreIdx.row_of_pre`);
   on the extended reals both programs then end at `Cert.Embed.emb` of the arguments: the reference by its run
   read at an index (`Cert.RefValue.run`, `res_eq`), the kernel by its run with the result buffer named
   (`Cert.KValue.run`) and region 1's final array (`Cert.KResult.kernel_result`). The only laws used are
   0 * x = 0, 1 * x = x and commutativity and associativity of addition; changes of float format are the identity,
   and the kernel's logistic is the reference's 1 / (1 + exp (-x)) by definition.
   The three frames are the generated frame certificates and the reference's run with its result dropped; the
   idealization rewrote nothing, so `preserves` is trivial. -/
import proofs.«179271_g70540542870206_cont_9to1c4b_451_4_alg».proof.Defs
import proofs.«179271_g70540542870206_cont_9to1c4b_451_4_alg».proof.Proof.Gen.Kernel
import proofs.«179271_g70540542870206_cont_9to1c4b_451_4_alg».proof.Proof.Gen.Kernel.Frame
import proofs.«179271_g70540542870206_cont_9to1c4b_451_4_alg».proof.Proof.Gen.KernelIdeal
import proofs.«179271_g70540542870206_cont_9to1c4b_451_4_alg».proof.Proof.Gen.KernelIdeal.Frame
import proofs.«179271_g70540542870206_cont_9to1c4b_451_4_alg».proof.Proof.Gen.ReferenceIdeal
import proofs.«179271_g70540542870206_cont_9to1c4b_451_4_alg».proof.Proof.Gen.Pre_finite_inputs
import proofs.«179271_g70540542870206_cont_9to1c4b_451_4_alg».proof.Proof.Spec
import proofs.«179271_g70540542870206_cont_9to1c4b_451_4_alg».proof.Proof.PreIdx
import proofs.«179271_g70540542870206_cont_9to1c4b_451_4_alg».proof.Proof.KRun
import proofs.«179271_g70540542870206_cont_9to1c4b_451_4_alg».proof.Proof.KResult
import proofs.«179271_g70540542870206_cont_9to1c4b_451_4_alg».proof.Proof.RefRun
import proofs.«179271_g70540542870206_cont_9to1c4b_451_4_alg».proof.Proof.RefRead
import Idealize.ShloMosaic.Adequacy
import Idealize.ShloMosaic.Init

noncomputable section

namespace Cert.Proof

open Idealize.ShloMosaic Idealize.SL.Sem

theorem frame_k [Cert.Kernel.Facts] [Cert.Pre_finite_inputs.Facts] : Cert.frame_Kernel :=
  fun m ρ _ => Cert.Kernel.Gen.frame m ρ

theorem frame_ki [Cert.KernelIdeal.Facts] [Cert.Pre_finite_inputs.Facts] : Cert.frame_KernelIdeal :=
  fun m ρ _ => Cert.KernelIdeal.Gen.frame m ρ

/-- The reference runs and keeps its arguments: its run, the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.RefValue.run (F := Ideal) m ρ)

/-- Both idealized programs end at the specification's array of the (agreeing) arguments. -/
theorem algebraic [Cert.KernelIdeal.Facts] [Cert.ReferenceIdeal.Facts] [hPre : Cert.Pre_finite_inputs.Facts] :
    Cert.algebraic_KernelIdeal_ReferenceIdeal := by
  intro m ρ m' ρ' hpre hagree
  choose row hrow using fun c => Cert.PreIdx.row_of_pre m hpre c
  refine ⟨fun c => Cert.Embed.emb (row c)
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KResult.kernel_result m ρ c (row c) (hrow c)), (h c).2⟩)
      (Cert.KValue.run (F := Ideal) m ρ)
  · refine (θ_run Cert.ReferenceIdeal.defs _ _).mono (fun _ h c => ⟨(h c).1.trans ?_, (h c).2⟩)
      (Cert.RefValue.run (F := Ideal) m' ρ')
    obtain ⟨e0, e1, e2, e3, e4, e5, e6, e7, e8⟩ := hagree c
    rw [Cert.RefValue.res_eq m' c (row c) (fun b l => by rw [e0]; exact hrow c b l), e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
